-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x192x192 : Shape := ⟨4, ![8, 256, 192, 192]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S8x256x192x192 : S_.BroadcastsInDim S8x256x192x192 (![] : Fin 0 → Fin S8x256x192x192.rank)
  reducesTo_S8x256x192x192_S_d0_1_2_3 : S8x256x192x192.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x256x192x192 .f32) (main_arg1 : FVec F S16x256 .f32) (main_arg2 : FVec F S16 .f32) (main_arg3 : FVec F S256x16 .f32) (main_arg4 : FVec F S256 .f32) : IVec S_ 1 :=
  let main_v0 : FVec F S8x256x192x192 .f32 := Host.absf main_arg0
  let main_cst : FVec F S_ .f32 := constant S_ .f32 0x7F800000#32
  let main_v1 : FVec F S8x256x192x192 .f32 := broadcastInDim S8x256x192x192 ![] bcast_S_S8x256x192x192 main_cst
  let main_v2 : IVec S8x256x192x192 1 := cmpf .olt main_v0 main_v1
  let main_c : IVec S_ 1 := constantI S_ 1 1#1
  let main_v3 : IVec S_ 1 := (fun x v => Host.reduce IntOp.andi x v reducesTo_S8x256x192x192_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S8x256x192x192 : Shape := ⟨4, ![8, 256, 192, 192]⟩
abbrev S16x256 : Shape := ⟨2, ![16, 256]⟩
abbrev S16 : Shape := ⟨1, ![16]⟩
abbrev S256x16 : Shape := ⟨2, ![256, 16]⟩
abbrev S256 : Shape := ⟨1, ![256]⟩
abbrev S2048x36864 : Shape := ⟨2, ![2048, 36864]⟩
abbrev S2048x1 : Shape := ⟨2, ![2048, 1]⟩
abbrev S256x1024 : Shape := ⟨2, ![256, 1024]⟩
abbrev S256x1 : Shape := ⟨2, ![256, 1]⟩
abbrev S8x256 : Shape := ⟨2, ![8, 256]⟩
abbrev S_ : Shape := ⟨0, ![]⟩
abbrev S8x16 : Shape := ⟨2, ![8, 16]⟩
abbrev S1x16 : Shape := ⟨2, ![1, 16]⟩
abbrev S1x256 : Shape := ⟨2, ![1, 256]⟩
abbrev S32x36864 : Shape := ⟨2, ![32, 36864]⟩
abbrev S32x1 : Shape := ⟨2, ![32, 1]⟩

abbrev nBuf : Space → Nat
  | .hbm => 37
  | .vmem => 11
  | .smem => 0
  | _ => 0

abbrev bufTy : (tb : Table) → Fin (tcTables nBuf tb) → BufTy
  | .hbm, ⟨0, _⟩ => ⟨S8x256x192x192, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S2048x36864, .f32⟩
  | .hbm, ⟨6, _⟩ => ⟨S2048x1, .f32⟩
  | .hbm, ⟨7, _⟩ => ⟨S8x256, .f32⟩
  | .hbm, ⟨8, _⟩ => ⟨S8x256, .f32⟩
  | .hbm, ⟨9, _⟩ => ⟨S_, .f32⟩
  | .hbm, ⟨10, _⟩ => ⟨S8x256, .f32⟩
  | .hbm, ⟨11, _⟩ => ⟨S8x256, .f32⟩
  | .hbm, ⟨12, _⟩ => ⟨S8x256, .f32⟩
  | .hbm, ⟨13, _⟩ => ⟨S256x16, .f32⟩
  | .hbm, ⟨14, _⟩ => ⟨S8x16, .f32⟩
  | .hbm, ⟨15, _⟩ => ⟨S1x16, .f32⟩
  | .hbm, ⟨16, _⟩ => ⟨S8x16, .f32⟩
  | .hbm, ⟨17, _⟩ => ⟨S8x16, .f32⟩
  | .hbm, ⟨18, _⟩ => ⟨S_, .f32⟩
  | .hbm, ⟨19, _⟩ => ⟨S8x16, .f32⟩
  | .hbm, ⟨20, _⟩ => ⟨S8x16, .f32⟩
  | .hbm, ⟨21, _⟩ => ⟨S16x256, .f32⟩
  | .hbm, ⟨22, _⟩ => ⟨S8x256, .f32⟩
  | .hbm, ⟨23, _⟩ => ⟨S1x256, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S_, .f32⟩
  | .hbm, ⟨29, _⟩ => ⟨S8x256, .f32⟩
  | .hbm, ⟨30, _⟩ => ⟨S8x256, .f32⟩
  | .hbm, ⟨31, _⟩ => ⟨S_, .f32⟩
  | .hbm, ⟨32, _⟩ => ⟨S8x256, .f32⟩
  | .hbm, ⟨33, _⟩ => ⟨S8x256, .f32⟩
  | .hbm, ⟨34, _⟩ => ⟨S2048x1, .f32⟩
  | .hbm, ⟨35, _⟩ => ⟨S2048x36864, .f32⟩
  | .hbm, ⟨36, _⟩ => ⟨S8x256x192x192, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S32x36864, .f32⟩
  | .local _ .vmem, ⟨6, _⟩ => ⟨S32x36864, .f32⟩
  | .local _ .vmem, ⟨7, _⟩ => ⟨S32x1, .f32⟩
  | .local _ .vmem, ⟨8, _⟩ => ⟨S32x1, .f32⟩
  | .local _ .vmem, ⟨9, _⟩ => ⟨S32x36864, .f32⟩
  | .local _ .vmem, ⟨10, _⟩ => ⟨S32x36864, .f32⟩
  | _, _ => ⟨S8x256x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 36], ![false, false]⟩

def k0_cond2 (i : grid0.Coords) : BitVec 1 :=
  let arg1 : BitVec 32 := BitVec.ofNat 32 (i 1).val
  let c35_i32 : BitVec 32 := 35#32
  let v13 : BitVec 1 := Scalar.cmpi .eq arg1 c35_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x36864 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x36864 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8x256x192x192_S2048x36864 : S8x256x192x192.ShapeCasts S2048x36864
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  shapeCasts_S2048x1_S8x256 : S2048x1.ShapeCasts S8x256
  bcast_S_S8x256 : S_.BroadcastsInDim S8x256 (![] : Fin 0 → Fin S8x256.rank)
  transposes_S16x256_S256x16_1_0 : S16x256.Transposes [1, 0] S256x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S8x16 : S_.BroadcastsInDim S8x16 (![] : Fin 0 → Fin S8x16.rank)
  transposes_S256x16_S16x256_1_0 : S256x16.Transposes [1, 0] S16x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  shapeCasts_S8x256_S2048x1 : S8x256.ShapeCasts S2048x1
  inb_S32x36864_S32x36864_0_0 : ∀ a, (![0, 0] : Fin 2 → Nat) a + S32x36864.size a ≤ S32x36864.size a
  h_S32x36864 : 0 < S32x36864.numel
  shapeCasts_S32x36864_S32x36864 : S32x36864.ShapeCasts S32x36864
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x36864 : S32x1.Broadcasts S32x36864
  shapeCasts_S2048x36864_S8x256x192x192 : S2048x36864.ShapeCasts S8x256x192x192
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x36864.size a
  hwx0_0 : ∀ i : grid0.Coords, EltTy.bits .f32 = 32 ∨ (Rect.block (s := S2048x36864) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .f32 = 32 ∨ (Rect.block (s := S2048x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x36864.size a ≤ S2048x36864.size a
  hwx1_0 : ∀ i : grid1.Coords, EltTy.bits .f32 = 32 ∨ (Rect.block (s := S2048x36864) S32x36864.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S2048x1.size a
  hwx1_1 : ∀ i : grid1.Coords, EltTy.bits .f32 = 32 ∨ (Rect.block (s := S2048x1) S32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x36864.size a ≤ S2048x36864.size a
  hwx1_2 : ∀ i : grid1.Coords, EltTy.bits .f32 = 32 ∨ (Rect.block (s := S2048x36864) S32x36864.size (cc1_transform_2 i) (hinb1_2 i)).WholeWords (EltTy.packing .f32)

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S32x36864.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S32x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S32x36864.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x256x192x192 : Shape := ⟨4, ![8, 256, 192, 192]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S8x256 : Shape := ⟨2, ![8, 256]⟩
abbrev S8x16 : Shape := ⟨2, ![8, 16]⟩
abbrev S1x16 : Shape := ⟨2, ![1, 16]⟩
abbrev S1x256 : Shape := ⟨2, ![1, 256]⟩
abbrev S8x256x1x1 : Shape := ⟨4, ![8, 256, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S8x256x192x192, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S8x256x192x192, .f32⟩
  | .hbm, ⟨6, _⟩ => ⟨S_, .f32⟩
  | .hbm, ⟨7, _⟩ => ⟨S8x256, .f32⟩
  | .hbm, ⟨8, _⟩ => ⟨S8x256, .f32⟩
  | .hbm, ⟨9, _⟩ => ⟨S_, .f32⟩
  | .hbm, ⟨10, _⟩ => ⟨S8x256, .f32⟩
  | .hbm, ⟨11, _⟩ => ⟨S8x256, .f32⟩
  | .hbm, ⟨12, _⟩ => ⟨S8x256, .f32⟩
  | .hbm, ⟨13, _⟩ => ⟨S256x16, .f32⟩
  | .hbm, ⟨14, _⟩ => ⟨S8x16, .f32⟩
  | .hbm, ⟨15, _⟩ => ⟨S1x16, .f32⟩
  | .hbm, ⟨16, _⟩ => ⟨S8x16, .f32⟩
  | .hbm, ⟨17, _⟩ => ⟨S8x16, .f32⟩
  | .hbm, ⟨18, _⟩ => ⟨S_, .f32⟩
  | .hbm, ⟨19, _⟩ => ⟨S8x16, .f32⟩
  | .hbm, ⟨20, _⟩ => ⟨S8x16, .f32⟩
  | .hbm, ⟨21, _⟩ => ⟨S16x256, .f32⟩
  | .hbm, ⟨22, _⟩ => ⟨S8x256, .f32⟩
  | .hbm, ⟨23, _⟩ => ⟨S1x256, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S_, .f32⟩
  | .hbm, ⟨29, _⟩ => ⟨S8x256, .f32⟩
  | .hbm, ⟨30, _⟩ => ⟨S8x256, .f32⟩
  | .hbm, ⟨31, _⟩ => ⟨S_, .f32⟩
  | .hbm, ⟨32, _⟩ => ⟨S8x256, .f32⟩
  | .hbm, ⟨33, _⟩ => ⟨S8x256, .f32⟩
  | .hbm, ⟨34, _⟩ => ⟨S8x256x1x1, .f32⟩
  | .hbm, ⟨35, _⟩ => ⟨S8x256x192x192, .f32⟩
  | .hbm, ⟨36, _⟩ => ⟨S8x256x192x192, .f32⟩
  | _, _ => ⟨S8x256x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  reducesTo_S8x256x192x192_S8x256_d2_3 : S8x256x192x192.ReducesTo [2, 3] S8x256
  h_S_ : 0 < S_.numel
  bcast_S_S8x256 : S_.BroadcastsInDim S8x256 (![] : Fin 0 → Fin S8x256.rank)
  transposes_S16x256_S256x16_1_0 : S16x256.Transposes [1, 0] S256x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S8x16 : S_.BroadcastsInDim S8x16 (![] : Fin 0 → Fin S8x16.rank)
  transposes_S256x16_S16x256_1_0 : S256x16.Transposes [1, 0] S16x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S8x256_S8x256x1x1_0_1 : S8x256.BroadcastsInDim S8x256x1x1 (![0, 1] : Fin 2 → Fin S8x256x1x1.rank)
  bcast_S8x256x1x1_S8x256x192x192_0_1_2_3 : S8x256x1x1.BroadcastsInDim S8x256x192x192 (![0, 1, 2, 3] : Fin 4 → Fin S8x256x192x192.rank)
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

class Facts : Prop extends Facts₀ where

variable [Facts]
-- ==== Proof.R0RunsBits.lean ====
/-
  Region 0 of the kernel: the sum-of-squares pass. Its grid is 8 row blocks by 36 column tiles, walked row block by
  row block; the body keeps a [256,1] scratch accumulator across the 36 tiles of a row block: it zeroes the scratch at
  tile 0, adds the tile's row sums of squares at every tile, and copies the scratch into the output block at tile 35.
  So the body has three control cases over the grid: tile 0 (reset and add; the output block untouched), tiles 1..34
  (add; the output block untouched), tile 35 (add and store the output block).
  This module states, at any contents `V` of the buffers when the region is entered: a window's block at a point, the
  two branch conditions in closed form over the grid, where the output window is idle, and the body's run in each of
  the three cases — on whole staging memrefs, the input block at its contents, the scratch at what the tile before
  left (at anything in the first case), the body runs to a state where the input block is as it was and each buffer
  the case stores into holds the case's stored pieces.
-/
import proofs.«115023_j34445637714659_2_alg».proof.Proof.Gen.Kernel.Launch
import proofs.«115023_j34445637714659_2_alg».proof.Proof.Gen.Kernel.Skeleton
import proofs.«115023_j34445637714659_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions over the grid -/

/-- "This is the first tile of its row block." -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 36 = 0 :=
  (by decide +kernel : ∀ t : Fin grid0.N, cond0_0 (grid0.coords t) ↔ t.val % 36 = 0)

/-- "This is the last tile of its row block." -/
abbrev cond0_1 (i : grid0.Coords) : Prop := k0_cond2 i = 1#1
theorem hcond0_1 : ∀ t : Fin cfg0.N, cond0_1 (grid0.coords t) ↔ t.val % 36 = 35 :=
  (by decide +kernel : ∀ t : Fin grid0.N, cond0_1 (grid0.coords t) ↔ t.val % 36 = 35)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S256x1 .f32 := (Memref.whole cc0_stg1_0 : Memref sig .tc .vmem S256x1 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0_0 : Memref sig .tc .vmem S256x1 .f32 := Memref.whole cc0_scratch0
abbrev VS0_0 : View sig .tc .vmem S256x1 .f32 := scM0_0.view

/-! ## The body's run, case by case -/

set_option maxHeartbeats 1000000 in
/-- First tile of a row block: the scratch, at anything, is zeroed and then receives the tile's row sums; the output
    block is handed back untouched. -/
noncomputable def kernelRun0_A (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x1024 .f32) :
    Σ' (L1 : List (View.Piece (Elt F) S256x1 .f32)), { LS0 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A middle tile: the scratch, at what the tile before left, receives the tile's row sums on top; the output block
    is handed back untouched. -/
noncomputable def kernelRun0_B (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x1024 .f32) (xs0 : Vec F S256x1 .f32) :
    Σ' (L1 : List (View.Piece (Elt F) S256x1 .f32)), { LS0 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Last tile of a row block: the scratch receives the tile's row sums on top, and the output block, at anything,
    receives the scratch. -/
noncomputable def kernelRun0_C (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x1024 .f32) (xs0 : Vec F S256x1 .f32) :
    Σ' (L1 : List (View.Piece (Elt F) S256x1 .f32)), { LS0 : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨?_, ?_, fun E K => ?run⟩
  case run =>
    simp only [cc0__sumsq_kernel_eq_skeleton]; unfold cc0__sumsq_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-- The region's invariant of the first point, with the scratch as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

end Cert.Kernel.Hand

end
-- ==== Proof.R0FrameBits.lean ====
/-
  Region 0 of the kernel, continued: what the three cases of the body leave in the output block's buffer and in the
  scratch accumulator (the stored pieces read back), the accumulation point by point — after point `n` the scratch
  holds the first case's contents if `n` is a first tile, else the case's contents over what point `n - 1` left —, the
  region's invariant (before the first point every scoped buffer at anything; afterwards the scratch at exactly what
  the point before left, region 1's staging buffers at anything), the proof data and the body obligation at every
  point.
-/
import proofs.«115023_j34445637714659_2_alg».proof.Proof.R0RunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 1's six staging buffers, each whole at some contents: region 0 never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Before the first point: the scratch at anything, region 1's staging buffers, the generator register. -/
theorem PhiA0_rest (c : Dev nD) :
    (Pipeline.ΦA spec0 c : sProp 𝕄) = iprop(iprop((∃ d, owns (c : Thread nD τ) scM0_0 fullShare d) ∗ rest0 c) ∗ (∃ r, prngReg c r)) := by
  rw [PhiA0_eq]; rfl

/-! ## What each case leaves -/

def out0_A_1 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x1024 .f32) : Vec F S256x1 .f32 :=
  VO0_1.read (Elt F) (VO0_1.writes (Elt F) VO0_1.junk (kernelRun0_A c i arg2 harg2 arg3 harg3 arg4 harg4 hc0 hc1 x0).1)

theorem scover0_A_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x1024 .f32) (y : S256x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S256x1.size (by sl_kernel_rfl) y

def sout0_A_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x1024 .f32) : Vec F S256x1 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x1024 .f32) (xs0 : Vec F S256x1 .f32) : Vec F S256x1 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x1024 .f32) (xs0 : Vec F S256x1 .f32) (y : S256x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S256x1.size (by sl_kernel_rfl) y

def sout0_B_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x1024 .f32) (xs0 : Vec F S256x1 .f32) : Vec F S256x1 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x1024 .f32) (xs0 : Vec F S256x1 .f32) (y : S256x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S256x1.size (by sl_kernel_rfl) y

def out0_C_1 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x1024 .f32) (xs0 : Vec F S256x1 .f32) : Vec F S256x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x1024 .f32) (xs0 : Vec F S256x1 .f32) (y : S256x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S256x1.size (by sl_kernel_rfl) y

def sout0_C_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x1024 .f32) (xs0 : Vec F S256x1 .f32) : Vec F S256x1 .f32 :=
  VS0_0.read (Elt F) (VS0_0.writes (Elt F) VS0_0.junk (kernelRun0_C c i arg2 harg2 arg3 harg3 arg4 harg4 hc0 hc1 x0 xs0).2.1)

section Data
variable (V : (c : Dev nD) → (b : Ref sig .tc) → Buf (Elt F) ((c : Thread nD τ).loc b))

/-! ## The accumulation, point by point -/

/-- What the output block's buffer and the scratch hold after the body at position `n`: the case the closed forms
    select at `n`, run at the point's memrefs and input block, over the scratch as position `n - 1` left it. -/
def outsAt0 (c : Dev nD) : (n : ℕ) → n < cfg0.N → Vec F S256x1 .f32 × Vec F S256x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 36 = 0 then
      if h1 : (n + 1) % 36 = 35 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 36 = 35 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 36 = 0) (h1 : ¬t.val % 36 = 35) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 36 = 0) (h1 : ¬t.val % 36 = 35) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 36 = 0) (h1 : t.val % 36 = 35) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point every scoped buffer at anything; afterwards the scratch at what the point
    before left in it, region 1's staging buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The arrays as the region finds them; after the body at point `t` the input's buffer at its block and the output's
    at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms say which case the point is in; the
    invariant hands the body the scratch at what the point before left (at anything at the first point) and takes it
    back at this point's contents; region 1's staging buffers, the generator register and the core's dues pass through
    unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 288 := lt_of_lt_of_eq t.isLt (show cfg0.N = 288 from N_0)
  by_cases h0 : t.val % 36 = 0
  · by_cases h1 : t.val % 36 = 35
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_rest]
        iintro ⟨⟨⟨HS0, Hr6⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hg Hr6]
        · isplitl [HS0 Hr6]
          · isplitl [HS0]
            · unfold owns; iexists _; isplitr
              swap; · iexact HS0
              ipureintro; exact View.read_writes_of_cover _ _ _ _ _ (scover0_A_0 c _ _ _ _ _ _ _ _ _ _)
            iexact Hr6
          iexact Hg
        isplitl [Ho]; · iexact Ho
        isplitl [H0]; · iexact H0
        iexists _; iexact H1
      · rw [PhiS_castSucc V c t, PhiS_pos V c _ _ hz]
        iintro ⟨⟨⟨HS0, Hr6⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hg Hr6]
        · isplitl [HS0 Hr6]
          · isplitl [HS0]
            · unfold owns; iexists _; isplitr
              swap; · iexact HS0
              ipureintro; exact View.read_writes_of_cover _ _ _ _ _ (scover0_A_0 c _ _ _ _ _ _ _ _ _ _)
            iexact Hr6
          iexact Hg
        isplitl [Ho]; · iexact Ho
        isplitl [H0]; · iexact H0
        iexists _; iexact H1
  · by_cases h1 : t.val % 36 = 35
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS_castSucc V c t, PhiS_pos V c _ _ hz]
        iintro ⟨⟨⟨HS0, Hr6⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg Hr6]
        · isplitl [HS0 Hr6]
          · isplitl [HS0]
            · unfold owns; iexists _; isplitr
              swap; · iexact HS0
              ipureintro; exact View.read_writes_of_cover _ _ _ _ _ (scover0_C_0 c _ _ _ _ _ _ _ _ _ _ _)
            iexact Hr6
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; rw [hz] at h0; exact h0 (Nat.zero_mod _)
      · rw [PhiS_castSucc V c t, PhiS_pos V c _ _ hz]
        iintro ⟨⟨⟨HS0, Hr6⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hg Hr6]
        · isplitl [HS0 Hr6]
          · isplitl [HS0]
            · unfold owns; iexists _; isplitr
              swap; · iexact HS0
              ipureintro; exact View.read_writes_of_cover _ _ _ _ _ (scover0_B_0 c _ _ _ _ _ _ _ _ _ _ _)
            iexact Hr6
          iexact Hg
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives every scoped buffer back at anything: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 288 := N_0; omega), PhiA0_rest]
  iintro ⟨⟨HS0, Hr6⟩, Hg⟩
  isplitl [HS0 Hr6]
  · isplitl [HS0]
    · iexists _; iexact HS0
    iexact Hr6
  iexact Hg

end Data

end Cert.Kernel.Hand

end
-- ==== Proof.R1FrameBits.lean ====
import proofs.«115023_j34445637714659_2_alg».proof.Proof.Gen.Kernel.Launch
import proofs.«115023_j34445637714659_2_alg».proof.Proof.Gen.Kernel.Skeleton
import proofs.«115023_j34445637714659_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second region (the scaling kernel) at a parameter

The scaling kernel's pipeline at the buffer contents `V` the region is entered with: the blocks of its three
windows, the buffer the body leaves in the output window (one store of the product of the two loads), the
body's triple, the proof data of the pipeline, and the body obligation at every grid point. -/

-- membership in a rectangle of extents 32 x 36864: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the per-row gate). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 32 x 36864 buffer (the load of window 0 and the store of window 2). -/
abbrev r1_0 : Rect S32x36864 := Rect.unit (s := S32x36864) ![0, 0] S32x36864.size inb_S32x36864_S32x36864_0_0
/-- The whole 32 x 1 buffer (the load of window 1). -/
abbrev r1_1 : Rect S32x1 := Rect.unit (s := S32x1) ![0, 0] S32x1.size inb_S32x1_S32x1_0_0

/-! ## What the body leaves in the output window's buffer -/

/-- Window 2's staging buffer after the body, from the input windows' blocks: its one store, whose payload is
    the product of the two loads. -/
def out1_2 (x0 : Vec F S32x36864 .f32) (x1 : Vec F S32x1 .f32) : Vec F S32x36864 .f32 :=
  View.canon [⟨r1_0, k1_pay1 (View.ld x0 r1_0) (View.ld x1 r1_1)⟩]

/-- The store is of the whole buffer, so it covers it. -/
theorem cover1_2 (p0 : Vec F S32x36864 .f32) (y : S32x36864.Idx) :
    ∃ pc ∈ ([⟨r1_0, p0⟩] : List (View.Piece (Elt F) S32x36864 .f32)), y ∈ pc.1.set :=
  View.cover_of_tiled [⟨r1_0, p0⟩] S32x36864.size (by rfl) y

/-! ## The body's triple -/

set_option maxHeartbeats 1000000 in
/-- The kernel body on whole staging memrefs, the inputs' at read contents `x0`, `x1` and the output's at anything,
    runs to the continuation holding the inputs' as they were and the output's at `out1_2 x0 x1`. -/
theorem sound_kernel1 (c : Dev nD) (E : Set ℕ) (i : grid1.Coords) (arg1 : Memref sig .tc .vmem S32x36864 .f32) (harg1 : arg1.IsWhole) (arg2 : Memref sig .tc .vmem S32x1 .f32) (harg2 : arg2.IsWhole) (arg3 : Memref sig .tc .vmem S32x36864 .f32) (harg3 : arg3.IsWhole)
    (x0 : Vec F S32x36864 .f32) (x1 : Vec F S32x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the scaling pipeline on core `c`: the arrays as the region finds them (`V`); after the body at
    point `t` each input's buffer at its block and the output's at `out1_2` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunAllBits.lean ====
/-
  The whole program as a run: seven segments — the reshape of the input, region 0, the host operations up to the relu
  call, that call's three operations, the host operations down to the gate's reshape, region 1, the final reshape —
  over one thread state ("every unscoped buffer at the boundary's contents, the generator register at some state,
  nothing owed"). The buffer contents at each boundary are a fold from the launch memory: a host stretch applies its
  operations; a region replaces its windows' arrays by what its write-backs leave and keeps every other buffer. The
  run's post reads every unscoped buffer at the last boundary's contents.
-/
import proofs.«115023_j34445637714659_2_alg».proof.Proof.R0FrameBits
import proofs.«115023_j34445637714659_2_alg».proof.Proof.R1FrameBits
import proofs.«115023_j34445637714659_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the input's reshape: region 0's entry. -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)
/-- After the host operations up to the relu call, after the call, after the rest down to the gate's reshape:
    region 1's entry. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev Vin1 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev Vout1 : (c : Dev nD) → (b : Ref sig .tc) → Buf (Elt F) ((c : Thread nD τ).loc b) := fun c b => W6 m ρ c b
theorem hF1 (c : Dev nD) (w : Fin cfg1.W) : (dat1 (Vin1 m ρ) c).arrAt w cfg1.N = Vout1 m ρ c (Pipeline.arrRef spec1 w) :=
  (W6_arr m ρ c w).symm
theorem hrest1 (c : Dev nD) : ∀ b, b ∉ Finset.univ.image (Pipeline.arrRef spec1) → Vout1 m ρ c b = Vin1 m ρ c b :=
  fun b hb => W6_of_ne m ρ c b fun w e => hb (Finset.mem_image.mpr ⟨w, Finset.mem_univ _, e⟩)
/-- After the final reshape: the end. -/
abbrev W7 : Dev nD → Valuation τ sig (Elt F) := fun c => StableHlo.after hostOps2 (W6 m ρ c)

/-! ## A buffer nothing writes reaches the end as launched -/

theorem W7_untouched (c : Dev nD) (r : Ref sig .tc) (h0 : r ∉ (hostOps0_W : List (Ref sig .tc))) (h1 : r ∉ (hostOps1_W : List (Ref sig .tc)))
    (h11 : r ∉ (hostOps1_1_W : List (Ref sig .tc))) (h12 : r ∉ (hostOps1_2_W : List (Ref sig .tc))) (h2 : r ∉ (hostOps2_W : List (Ref sig .tc)))
    (ha0 : ∀ w, Pipeline.arrRef spec0 w ≠ r) (ha1 : ∀ w, Pipeline.arrRef spec1 w ≠ r) :
    W7 m ρ c (Proc.devRef .tc r) = m ((c : Thread nD τ).loc r) :=
  calc W7 m ρ c (Proc.devRef .tc r)
    _ = W6 m ρ c (Proc.devRef .tc r) := StableHlo.after_of_writes_sub hostOps2 _ hostOps2_writes h2
    _ = W5 m ρ c (Proc.devRef .tc r) := W6_of_ne m ρ c r ha1
    _ = W4 m ρ c (Proc.devRef .tc r) := StableHlo.after_of_writes_sub hostOps1_2 _ hostOps1_2_writes h12
    _ = W3 m ρ c (Proc.devRef .tc r) := StableHlo.after_of_writes_sub hostOps1_1 _ hostOps1_1_writes h11
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the region's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m ρ) c)
    unfold Pipeline.ΦA
    iintro ⟨Hp, -, Hr⟩
    isplitl [Hr]; · iexact Hr
    iexact Hp
  hout c := by
    rw [Pipeline.ownSems0_none]
    refine BIBase.Entails.trans (hout0 (Vin0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out
    of the unscoped buffers and put back at the exit contents; the generator register goes into the region's invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The last host stretch as a segment whose exit keeps the dues apart (the launch's chain ends at the last thread state
    beside the core owing nothing). -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

theorem main_run (c : Dev nD) : main (F := F) c = Pipeline.Seg.run (segs m ρ) := (main_chain c).trans (by chain_rfl)

set_option backward.isDefEq.respectTransparency.types false in
/-- From any memory with zero counters every weakly fair execution of the program on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c) ⊢ _
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_untouched m ρ c main_arg0 (by decide) (by decide) (by decide) (by decide) (by decide) (by decide) (by decide)),
     (h c _ (mem_uc main_arg1 (by decide))).trans (W7_untouched m ρ c main_arg1 (by decide) (by decide) (by decide) (by decide) (by decide) (by decide) (by decide)),
     (h c _ (mem_uc main_arg2 (by decide))).trans (W7_untouched m ρ c main_arg2 (by decide) (by decide) (by decide) (by decide) (by decide) (by decide) (by decide)),
     (h c _ (mem_uc main_arg3 (by decide))).trans (W7_untouched m ρ c main_arg3 (by decide) (by decide) (by decide) (by decide) (by decide) (by decide) (by decide)),
     (h c _ (mem_uc main_arg4 (by decide))).trans (W7_untouched m ρ c main_arg4 (by decide) (by decide) (by decide) (by decide) (by decide) (by decide) (by decide))⟩)
    (run_all m ρ)

end Cert.Kernel.Hand

end
-- ==== Proof.R0Runs.lean ====
/-
  Region 0 of the kernel: the sum-of-squares pass. Its grid is 8 row blocks by 36 column tiles, walked row block by
  row block; the body keeps a [256,1] scratch accumulator across the 36 tiles of a row block: it zeroes the scratch at
  tile 0, adds the tile's row sums of squares at every tile, and copies the scratch into the output block at tile 35.
  So the body has three control cases over the grid: tile 0 (reset and add; the output block untouched), tiles 1..34
  (add; the output block untouched), tile 35 (add and store the output block).
  This module states, at any contents `V` of the buffers when the region is entered: a window's block at a point, the
  two branch conditions in closed form over the grid, where the output window is idle, and the body's run in each of
  the three cases — on whole staging memrefs, the input block at its contents, the scratch at what the tile before
  left (at anything in the first case), the body runs to a state where the input block is as it was and each buffer
  the case stores into holds the case's stored pieces.
-/
import proofs.«115023_j34445637714659_2_alg».proof.Proof.Gen.KernelIdeal.Launch
import proofs.«115023_j34445637714659_2_alg».proof.Proof.Gen.KernelIdeal.Skeleton
import proofs.«115023_j34445637714659_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions over the grid -/

/-- "This is the first tile of its row block." -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 36 = 0 :=
  (by decide +kernel : ∀ t : Fin grid0.N, cond0_0 (grid0.coords t) ↔ t.val % 36 = 0)

/-- "This is the last tile of its row block." -/
abbrev cond0_1 (i : grid0.Coords) : Prop := k0_cond2 i = 1#1
theorem hcond0_1 : ∀ t : Fin cfg0.N, cond0_1 (grid0.coords t) ↔ t.val % 36 = 35 :=
  (by decide +kernel : ∀ t : Fin grid0.N, cond0_1 (grid0.coords t) ↔ t.val % 36 = 35)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S256x1 .f32 := (Memref.whole cc0_stg1_0 : Memref sig .tc .vmem S256x1 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0_0 : Memref sig .tc .vmem S256x1 .f32 := Memref.whole cc0_scratch0
abbrev VS0_0 : View sig .tc .vmem S256x1 .f32 := scM0_0.view

/-! ## The body's run, case by case -/

set_option maxHeartbeats 1000000 in
/-- First tile of a row block: the scratch, at anything, is zeroed and then receives the tile's row sums; the output
    block is handed back untouched. -/
noncomputable def kernelRun0_A (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x1024 .f32) :
    Σ' (L1 : List (View.Piece (Elt F) S256x1 .f32)), { LS0 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A middle tile: the scratch, at what the tile before left, receives the tile's row sums on top; the output block
    is handed back untouched. -/
noncomputable def kernelRun0_B (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x1024 .f32) (xs0 : Vec F S256x1 .f32) :
    Σ' (L1 : List (View.Piece (Elt F) S256x1 .f32)), { LS0 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Last tile of a row block: the scratch receives the tile's row sums on top, and the output block, at anything,
    receives the scratch. -/
noncomputable def kernelRun0_C (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x1024 .f32) (xs0 : Vec F S256x1 .f32) :
    Σ' (L1 : List (View.Piece (Elt F) S256x1 .f32)), { LS0 : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨?_, ?_, fun E K => ?run⟩
  case run =>
    simp only [cc0__sumsq_kernel_eq_skeleton]; unfold cc0__sumsq_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-- The region's invariant of the first point, with the scratch as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

end Cert.KernelIdeal.Hand

end
-- ==== Proof.R0Frame.lean ====
/-
  Region 0 of the kernel, continued: what the three cases of the body leave in the output block's buffer and in the
  scratch accumulator (the stored pieces read back), the accumulation point by point — after point `n` the scratch
  holds the first case's contents if `n` is a first tile, else the case's contents over what point `n - 1` left —, the
  region's invariant (before the first point every scoped buffer at anything; afterwards the scratch at exactly what
  the point before left, region 1's staging buffers at anything), the proof data and the body obligation at every
  point.
-/
import proofs.«115023_j34445637714659_2_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 1's six staging buffers, each whole at some contents: region 0 never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Before the first point: the scratch at anything, region 1's staging buffers, the generator register. -/
theorem PhiA0_rest (c : Dev nD) :
    (Pipeline.ΦA spec0 c : sProp 𝕄) = iprop(iprop((∃ d, owns (c : Thread nD τ) scM0_0 fullShare d) ∗ rest0 c) ∗ (∃ r, prngReg c r)) := by
  rw [PhiA0_eq]; rfl

/-! ## What each case leaves -/

def out0_A_1 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x1024 .f32) : Vec F S256x1 .f32 :=
  VO0_1.read (Elt F) (VO0_1.writes (Elt F) VO0_1.junk (kernelRun0_A c i arg2 harg2 arg3 harg3 arg4 harg4 hc0 hc1 x0).1)

theorem scover0_A_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x1024 .f32) (y : S256x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S256x1.size (by sl_kernel_rfl) y

def sout0_A_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x1024 .f32) : Vec F S256x1 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x1024 .f32) (xs0 : Vec F S256x1 .f32) : Vec F S256x1 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x1024 .f32) (xs0 : Vec F S256x1 .f32) (y : S256x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S256x1.size (by sl_kernel_rfl) y

def sout0_B_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x1024 .f32) (xs0 : Vec F S256x1 .f32) : Vec F S256x1 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x1024 .f32) (xs0 : Vec F S256x1 .f32) (y : S256x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S256x1.size (by sl_kernel_rfl) y

def out0_C_1 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x1024 .f32) (xs0 : Vec F S256x1 .f32) : Vec F S256x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x1024 .f32) (xs0 : Vec F S256x1 .f32) (y : S256x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S256x1.size (by sl_kernel_rfl) y

def sout0_C_0 (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x1024 .f32) (xs0 : Vec F S256x1 .f32) : Vec F S256x1 .f32 :=
  VS0_0.read (Elt F) (VS0_0.writes (Elt F) VS0_0.junk (kernelRun0_C c i arg2 harg2 arg3 harg3 arg4 harg4 hc0 hc1 x0 xs0).2.1)

section Data
variable (V : (c : Dev nD) → (b : Ref sig .tc) → Buf (Elt F) ((c : Thread nD τ).loc b))

/-! ## The accumulation, point by point -/

/-- What the output block's buffer and the scratch hold after the body at position `n`: the case the closed forms
    select at `n`, run at the point's memrefs and input block, over the scratch as position `n - 1` left it. -/
def outsAt0 (c : Dev nD) : (n : ℕ) → n < cfg0.N → Vec F S256x1 .f32 × Vec F S256x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 36 = 0 then
      if h1 : (n + 1) % 36 = 35 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 36 = 35 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 36 = 0) (h1 : ¬t.val % 36 = 35) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 36 = 0) (h1 : ¬t.val % 36 = 35) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 36 = 0) (h1 : t.val % 36 = 35) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point every scoped buffer at anything; afterwards the scratch at what the point
    before left in it, region 1's staging buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The arrays as the region finds them; after the body at point `t` the input's buffer at its block and the output's
    at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms say which case the point is in; the
    invariant hands the body the scratch at what the point before left (at anything at the first point) and takes it
    back at this point's contents; region 1's staging buffers, the generator register and the core's dues pass through
    unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 288 := lt_of_lt_of_eq t.isLt (show cfg0.N = 288 from N_0)
  by_cases h0 : t.val % 36 = 0
  · by_cases h1 : t.val % 36 = 35
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_rest]
        iintro ⟨⟨⟨HS0, Hr6⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hg Hr6]
        · isplitl [HS0 Hr6]
          · isplitl [HS0]
            · unfold owns; iexists _; isplitr
              swap; · iexact HS0
              ipureintro; exact View.read_writes_of_cover _ _ _ _ _ (scover0_A_0 c _ _ _ _ _ _ _ _ _ _)
            iexact Hr6
          iexact Hg
        isplitl [Ho]; · iexact Ho
        isplitl [H0]; · iexact H0
        iexists _; iexact H1
      · rw [PhiS_castSucc V c t, PhiS_pos V c _ _ hz]
        iintro ⟨⟨⟨HS0, Hr6⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hg Hr6]
        · isplitl [HS0 Hr6]
          · isplitl [HS0]
            · unfold owns; iexists _; isplitr
              swap; · iexact HS0
              ipureintro; exact View.read_writes_of_cover _ _ _ _ _ (scover0_A_0 c _ _ _ _ _ _ _ _ _ _)
            iexact Hr6
          iexact Hg
        isplitl [Ho]; · iexact Ho
        isplitl [H0]; · iexact H0
        iexists _; iexact H1
  · by_cases h1 : t.val % 36 = 35
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS_castSucc V c t, PhiS_pos V c _ _ hz]
        iintro ⟨⟨⟨HS0, Hr6⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg Hr6]
        · isplitl [HS0 Hr6]
          · isplitl [HS0]
            · unfold owns; iexists _; isplitr
              swap; · iexact HS0
              ipureintro; exact View.read_writes_of_cover _ _ _ _ _ (scover0_C_0 c _ _ _ _ _ _ _ _ _ _ _)
            iexact Hr6
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; rw [hz] at h0; exact h0 (Nat.zero_mod _)
      · rw [PhiS_castSucc V c t, PhiS_pos V c _ _ hz]
        iintro ⟨⟨⟨HS0, Hr6⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hg Hr6]
        · isplitl [HS0 Hr6]
          · isplitl [HS0]
            · unfold owns; iexists _; isplitr
              swap; · iexact HS0
              ipureintro; exact View.read_writes_of_cover _ _ _ _ _ (scover0_B_0 c _ _ _ _ _ _ _ _ _ _ _)
            iexact Hr6
          iexact Hg
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives every scoped buffer back at anything: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 288 := N_0; omega), PhiA0_rest]
  iintro ⟨⟨HS0, Hr6⟩, Hg⟩
  isplitl [HS0 Hr6]
  · isplitl [HS0]
    · iexists _; iexact HS0
    iexact Hr6
  iexact Hg

end Data

end Cert.KernelIdeal.Hand

end
-- ==== Proof.R1Frame.lean ====
import proofs.«115023_j34445637714659_2_alg».proof.Proof.Gen.KernelIdeal.Launch
import proofs.«115023_j34445637714659_2_alg».proof.Proof.Gen.KernelIdeal.Skeleton
import proofs.«115023_j34445637714659_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second region (the scaling kernel) at a parameter

The scaling kernel's pipeline at the buffer contents `V` the region is entered with: the blocks of its three
windows, the buffer the body leaves in the output window (one store of the product of the two loads), the
body's triple, the proof data of the pipeline, and the body obligation at every grid point. -/

-- membership in a rectangle of extents 32 x 36864: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the per-row gate). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 32 x 36864 buffer (the load of window 0 and the store of window 2). -/
abbrev r1_0 : Rect S32x36864 := Rect.unit (s := S32x36864) ![0, 0] S32x36864.size inb_S32x36864_S32x36864_0_0
/-- The whole 32 x 1 buffer (the load of window 1). -/
abbrev r1_1 : Rect S32x1 := Rect.unit (s := S32x1) ![0, 0] S32x1.size inb_S32x1_S32x1_0_0

/-! ## What the body leaves in the output window's buffer -/

/-- Window 2's staging buffer after the body, from the input windows' blocks: its one store, whose payload is
    the product of the two loads. -/
def out1_2 (x0 : Vec F S32x36864 .f32) (x1 : Vec F S32x1 .f32) : Vec F S32x36864 .f32 :=
  View.canon [⟨r1_0, k1_pay1 (View.ld x0 r1_0) (View.ld x1 r1_1)⟩]

/-- The store is of the whole buffer, so it covers it. -/
theorem cover1_2 (p0 : Vec F S32x36864 .f32) (y : S32x36864.Idx) :
    ∃ pc ∈ ([⟨r1_0, p0⟩] : List (View.Piece (Elt F) S32x36864 .f32)), y ∈ pc.1.set :=
  View.cover_of_tiled [⟨r1_0, p0⟩] S32x36864.size (by rfl) y

/-! ## The body's triple -/

set_option maxHeartbeats 1000000 in
/-- The kernel body on whole staging memrefs, the inputs' at read contents `x0`, `x1` and the output's at anything,
    runs to the continuation holding the inputs' as they were and the output's at `out1_2 x0 x1`. -/
theorem sound_kernel1 (c : Dev nD) (E : Set ℕ) (i : grid1.Coords) (arg1 : Memref sig .tc .vmem S32x36864 .f32) (harg1 : arg1.IsWhole) (arg2 : Memref sig .tc .vmem S32x1 .f32) (harg2 : arg2.IsWhole) (arg3 : Memref sig .tc .vmem S32x36864 .f32) (harg3 : arg3.IsWhole)
    (x0 : Vec F S32x36864 .f32) (x1 : Vec F S32x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the scaling pipeline on core `c`: the arrays as the region finds them (`V`); after the body at
    point `t` each input's buffer at its block and the output's at `out1_2` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunAll.lean ====
/-
  The whole program as a run: seven segments — the reshape of the input, region 0, the host operations up to the relu
  call, that call's three operations, the host operations down to the gate's reshape, region 1, the final reshape —
  over one thread state ("every unscoped buffer at the boundary's contents, the generator register at some state,
  nothing owed"). The buffer contents at each boundary are a fold from the launch memory: a host stretch applies its
  operations; a region replaces its windows' arrays by what its write-backs leave and keeps every other buffer. The
  run's post reads every unscoped buffer at the last boundary's contents.
-/
import proofs.«115023_j34445637714659_2_alg».proof.Proof.R0Frame
import proofs.«115023_j34445637714659_2_alg».proof.Proof.R1Frame
import proofs.«115023_j34445637714659_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the input's reshape: region 0's entry. -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)
/-- After the host operations up to the relu call, after the call, after the rest down to the gate's reshape:
    region 1's entry. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev Vin1 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev Vout1 : (c : Dev nD) → (b : Ref sig .tc) → Buf (Elt F) ((c : Thread nD τ).loc b) := fun c b => W6 m ρ c b
theorem hF1 (c : Dev nD) (w : Fin cfg1.W) : (dat1 (Vin1 m ρ) c).arrAt w cfg1.N = Vout1 m ρ c (Pipeline.arrRef spec1 w) :=
  (W6_arr m ρ c w).symm
theorem hrest1 (c : Dev nD) : ∀ b, b ∉ Finset.univ.image (Pipeline.arrRef spec1) → Vout1 m ρ c b = Vin1 m ρ c b :=
  fun b hb => W6_of_ne m ρ c b fun w e => hb (Finset.mem_image.mpr ⟨w, Finset.mem_univ _, e⟩)
/-- After the final reshape: the end. -/
abbrev W7 : Dev nD → Valuation τ sig (Elt F) := fun c => StableHlo.after hostOps2 (W6 m ρ c)

/-! ## A buffer nothing writes reaches the end as launched -/

theorem W7_untouched (c : Dev nD) (r : Ref sig .tc) (h0 : r ∉ (hostOps0_W : List (Ref sig .tc))) (h1 : r ∉ (hostOps1_W : List (Ref sig .tc)))
    (h11 : r ∉ (hostOps1_1_W : List (Ref sig .tc))) (h12 : r ∉ (hostOps1_2_W : List (Ref sig .tc))) (h2 : r ∉ (hostOps2_W : List (Ref sig .tc)))
    (ha0 : ∀ w, Pipeline.arrRef spec0 w ≠ r) (ha1 : ∀ w, Pipeline.arrRef spec1 w ≠ r) :
    W7 m ρ c (Proc.devRef .tc r) = m ((c : Thread nD τ).loc r) :=
  calc W7 m ρ c (Proc.devRef .tc r)
    _ = W6 m ρ c (Proc.devRef .tc r) := StableHlo.after_of_writes_sub hostOps2 _ hostOps2_writes h2
    _ = W5 m ρ c (Proc.devRef .tc r) := W6_of_ne m ρ c r ha1
    _ = W4 m ρ c (Proc.devRef .tc r) := StableHlo.after_of_writes_sub hostOps1_2 _ hostOps1_2_writes h12
    _ = W3 m ρ c (Proc.devRef .tc r) := StableHlo.after_of_writes_sub hostOps1_1 _ hostOps1_1_writes h11
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the region's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m ρ) c)
    unfold Pipeline.ΦA
    iintro ⟨Hp, -, Hr⟩
    isplitl [Hr]; · iexact Hr
    iexact Hp
  hout c := by
    rw [Pipeline.ownSems0_none]
    refine BIBase.Entails.trans (hout0 (Vin0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out
    of the unscoped buffers and put back at the exit contents; the generator register goes into the region's invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The last host stretch as a segment whose exit keeps the dues apart (the launch's chain ends at the last thread state
    beside the core owing nothing). -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

theorem main_run (c : Dev nD) : main (F := F) c = Pipeline.Seg.run (segs m ρ) := (main_chain c).trans (by chain_rfl)

set_option backward.isDefEq.respectTransparency.types false in
/-- From any memory with zero counters every weakly fair execution of the program on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c) ⊢ _
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_untouched m ρ c main_arg0 (by decide) (by decide) (by decide) (by decide) (by decide) (by decide) (by decide)),
     (h c _ (mem_uc main_arg1 (by decide))).trans (W7_untouched m ρ c main_arg1 (by decide) (by decide) (by decide) (by decide) (by decide) (by decide) (by decide)),
     (h c _ (mem_uc main_arg2 (by decide))).trans (W7_untouched m ρ c main_arg2 (by decide) (by decide) (by decide) (by decide) (by decide) (by decide) (by decide)),
     (h c _ (mem_uc main_arg3 (by decide))).trans (W7_untouched m ρ c main_arg3 (by decide) (by decide) (by decide) (by decide) (by decide) (by decide) (by decide)),
     (h c _ (mem_uc main_arg4 (by decide))).trans (W7_untouched m ρ c main_arg4 (by decide) (by decide) (by decide) (by decide) (by decide) (by decide) (by decide))⟩)
    (run_all m ρ)

end Cert.KernelIdeal.Hand

end
-- ==== Proof.Spec.lean ====
/-
  The specification of the gated row scaling, over the extended reals.

  For an input x of shape [8, 256, 192, 192] and gate weights w_down [16, 256], b_down [16], w_up [256, 16],
  b_up [256]:
    rowsq x (n, c)  = the sum over (h, w) of x(n, c, h, w) squared;
    gateOf ss       = 1 / (1 + exp (-(max (r * w_down^T + b_down) 0 * w_up^T + b_up))),  r = sqrt ss / (sqrt ss + 1e-6),
                      written as the literal composition of the host operations that compute it;
    G x (n,c,h,w)   = x(n, c, h, w) * gateOf (rowsq x) (n, c).
  The gate chain is carried as ONE function: nothing below or downstream opens it. The shapes, the shape facts
  and the two contraction records are the ones the printed reference program declares (the generated module
  that proves its side conditions is imported for them; no program is run here).
-/
import proofs.«115023_j34445637714659_2_alg».proof.Proof.Gen.ReferenceIdeal
import Idealize.ShloMosaic.PureOps.Ideal.Laws
import Idealize.ShloMosaic.Lib.ValueIdx
import Idealize.ShloMosaic.Lib.IdealHost

noncomputable section

namespace Cert.Spec

open Cert.ReferenceIdeal Cert.ReferenceIdeal.Gen Idealize.ShloMosaic

/-- The gate as a function of the [8, 256] sums of squares and the four weight arrays: square root, the ratio
    r = s / (s + 1e-6), the two affine layers with a maximum against zero between them, and the logistic
    function 1 / (1 + exp (-z)). -/
def gateOf (ss : FVec Ideal S8x256 .f32) (a1 : FVec Ideal S16x256 .f32) (a2 : FVec Ideal S16 .f32)
    (a3 : FVec Ideal S256x16 .f32) (a4 : FVec Ideal S256 .f32) : FVec Ideal S8x256 .f32 :=
  Host.divf (F := Ideal) (broadcastInDim S8x256 ![] bcast_S_S8x256 (constant (F := Ideal) S_ .f32 0x3F800000#32)) (addf (broadcastInDim S8x256 ![] bcast_S_S8x256 (constant (F := Ideal) S_ .f32 0x3F800000#32)) (Host.exp (F := Ideal) (Host.negf (F := Ideal) (addf (Host.dotGeneral (F := Ideal) dot_S8x16_S16x256_S8x256_1_0_0_1_n_n none (maximumf (addf (Host.dotGeneral (F := Ideal) dot_S8x256_S256x16_S8x16_1_0_0_1_n_n none (Host.divf (F := Ideal) (Host.sqrt (F := Ideal) ss) (addf (Host.sqrt (F := Ideal) ss) (broadcastInDim S8x256 ![] bcast_S_S8x256 (constant (F := Ideal) S_ .f32 0x358637BD#32)))) (transpose S256x16 [1, 0] a1 transposes_S16x256_S256x16_1_0)) (broadcastInDim S8x16 ![0, 1] bcast_S1x16_S8x16_0_1 (broadcastInDim S1x16 ![1] bcast_S16_S1x16_1 a2))) (broadcastInDim S8x16 ![] bcast_S_S8x16 (constant (F := Ideal) S_ .f32 0x00000000#32))) (transpose S16x256 [1, 0] a3 transposes_S256x16_S16x256_1_0)) (broadcastInDim S8x256 ![0, 1] bcast_S1x256_S8x256_0_1 (broadcastInDim S1x256 ![1] bcast_S256_S1x256_1 a4))))))

/-- The sum of squares of the 192 x 192 plane (n, c). -/
def rowsqAt (a0 : FVec Ideal S8x256x192x192 .f32) (n : Fin 8) (c : Fin 256) : EReal :=
  ∑ h : Fin 192, ∑ w : Fin 192, a0 (ValueIdx.ix4 n c h w) * a0 (ValueIdx.ix4 n c h w)

/-- The [8, 256] array of the planes' sums of squares. -/
def rowsq (a0 : FVec Ideal S8x256x192x192 .f32) : FVec Ideal S8x256 .f32 :=
  fun j => rowsqAt a0 ⟨(j 0).val, (j 0).isLt⟩ ⟨(j 1).val, (j 1).isLt⟩

theorem rowsq_apply (a0 : FVec Ideal S8x256x192x192 .f32) (n : Fin 8) (c : Fin 256) :
    rowsq a0 (ValueIdx.ix2 n c)
      = ∑ h : Fin 192, ∑ w : Fin 192, a0 (ValueIdx.ix4 n c h w) * a0 (ValueIdx.ix4 n c h w) := rfl

/-- The result: each element times the gate of its plane. -/
def G (a0 : FVec Ideal S8x256x192x192 .f32) (a1 : FVec Ideal S16x256 .f32) (a2 : FVec Ideal S16 .f32)
    (a3 : FVec Ideal S256x16 .f32) (a4 : FVec Ideal S256 .f32) : FVec Ideal S8x256x192x192 .f32 :=
  fun i => a0 i * gateOf (rowsq a0) a1 a2 a3 a4 (ValueIdx.ix2 ⟨(i 0).val, (i 0).isLt⟩ ⟨(i 1).val, (i 1).isLt⟩)

theorem G_apply (a0 : FVec Ideal S8x256x192x192 .f32) (a1 : FVec Ideal S16x256 .f32) (a2 : FVec Ideal S16 .f32)
    (a3 : FVec Ideal S256x16 .f32) (a4 : FVec Ideal S256 .f32) (n : Fin 8) (c : Fin 256) (h w : Fin 192) :
    G a0 a1 a2 a3 a4 (ValueIdx.ix4 n c h w)
      = a0 (ValueIdx.ix4 n c h w) * gateOf (rowsq a0) a1 a2 a3 a4 (ValueIdx.ix2 n c) := rfl

end Cert.Spec

end
-- ==== Proof.HostReads.lean ====
/-
  The host operations between the regions, read at the buffers the regions consume: the input's reshape to rows, the
  final reshape back, and the chain from the row sums to the gate — which is the specification's host chain applied to
  the reshaped sums, the same operations in the same order. Each is stated over arbitrary buffer contents, so that
  nothing behind them is ever unfolded. Then: no host operation and no region writes an argument; region 0's input
  array is the reshaped input; so is region 1's (region 0 only reads it, and no operation in between writes it).
-/
import proofs.«115023_j34445637714659_2_alg».proof.Proof.RunAll
import proofs.«115023_j34445637714659_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem reshape_in (V : Valuation τ sig (Elt Ideal)) :
    StableHlo.after hostOps0 V (Proc.devRef .tc main_v0)
      = shapeCast S2048x36864 (V (Proc.devRef .tc main_arg0)) shapeCasts_S8x256x192x192_S2048x36864 := by
  after_results
  rfl

theorem reshape_out (V : Valuation τ sig (Elt Ideal)) :
    StableHlo.after hostOps2 V (Proc.devRef .tc main_v26)
      = shapeCast S8x256x192x192 (V (Proc.devRef .tc main_v25)) shapeCasts_S2048x36864_S8x256x192x192 := by
  after_results
  rfl

set_option maxHeartbeats 4000000 in
theorem gate_chain (V : Valuation τ sig (Elt Ideal)) :
    StableHlo.after hostOps1_2 (StableHlo.after hostOps1_1 (StableHlo.after hostOps1 V)) (Proc.devRef .tc main_v24)
      = shapeCast S2048x1 (Cert.Spec.gateOf (shapeCast S8x256 (V (Proc.devRef .tc main_v1)) shapeCasts_S2048x1_S8x256)
          (V (Proc.devRef .tc main_arg1)) (V (Proc.devRef .tc main_arg2)) (V (Proc.devRef .tc main_arg3)) (V (Proc.devRef .tc main_arg4)))
          shapeCasts_S8x256_S2048x1 := by
  after_results_simp
  rfl

variable (m : (ℓ : Loc nD τ sig) → Buf (Elt Ideal) ℓ) (ρ : Dev nD → PrngReg)

/-- A buffer the input's reshape does not write and region 0 does not stage holds its launch contents after region 0. -/
theorem W2_untouched (c : Dev nD) (r : Ref sig .tc) (h0 : r ∉ (hostOps0_W : List (Ref sig .tc))) (ha0 : ∀ w, Pipeline.arrRef spec0 w ≠ r) :
    W2 m ρ c (Proc.devRef .tc r) = m ((c : Thread nD τ).loc r) :=
  (W2_of_ne m ρ c r ha0).trans ((StableHlo.after_of_writes_sub hostOps0 _ hostOps0_writes h0).trans rfl)

/-- Region 0's input array is the input reshaped to rows. -/
theorem Vin0_v0 (c : Dev nD) :
    Vin0 m ρ c main_v0 = shapeCast S2048x36864 (m ((c : Thread nD τ).loc main_arg0)) shapeCasts_S8x256x192x192_S2048x36864 :=
  reshape_in (W0 m ρ c)

/-- After region 0 that array is as it was: an input window's array is never written. -/
theorem W2_v0 (c : Dev nD) :
    W2 m ρ c (Proc.devRef .tc main_v0) = shapeCast S2048x36864 (m ((c : Thread nD τ).loc main_arg0)) shapeCasts_S8x256x192x192_S2048x36864 :=
  (W2_arr m ρ c 0).trans (((dat0 (Vin0 m ρ) c).arrAt_in 0 rfl _).trans ((A_eq0 (Vin0 m ρ) c 0).trans (Vin0_v0 m ρ c)))

/-- Region 1's first input array is the same reshaped input: no operation between the regions writes it. -/
theorem Vin1_v0 (c : Dev nD) :
    Vin1 m ρ c main_v0 = shapeCast S2048x36864 (m ((c : Thread nD τ).loc main_arg0)) shapeCasts_S8x256x192x192_S2048x36864 :=
  calc Vin1 m ρ c main_v0
    _ = W4 m ρ c (Proc.devRef .tc main_v0) := StableHlo.after_of_writes_sub hostOps1_2 _ hostOps1_2_writes (by decide)
    _ = W3 m ρ c (Proc.devRef .tc main_v0) := StableHlo.after_of_writes_sub hostOps1_1 _ hostOps1_1_writes (by decide)
    _ = W2 m ρ c (Proc.devRef .tc main_v0) := StableHlo.after_of_writes_sub hostOps1 _ hostOps1_writes (by decide)
    _ = _ := W2_v0 m ρ c

end Cert.KernelIdeal.Hand

end
-- ==== Proof.R1Value.lean ====
import proofs.«115023_j34445637714659_2_alg».proof.Proof.R1Frame
import Idealize.ShloMosaic.Lib.Pipeline.Value
import Idealize.ShloMosaic.Lib.ValueIdx

/-! # The scaled array as one function

At the extended reals, the output array of the scaling region is, index by index, the entry of the first input
array times the gate of its row: `out (r, k) = x (r, k) * g (r, 0)`. Grid point `t` handles rows
`32 t … 32 t + 31` (all 36864 columns), so row `r` is written by point `r / 32`, and the 64 points cover
the 2048 rows. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The offsets of the body's whole-buffer accesses are zero. -/
theorem off_zero : (![0, 0] : Fin 2 → Nat) = fun _ => 0 := funext fun a => by fin_cases a <;> rfl

/-- Every entry of a row times the row's gate. -/
def rowScaled (x : S2048x36864.Idx → EReal) (g : S2048x1.Idx → EReal) : S2048x36864.Idx → EReal :=
  fun i => x i * g (ix2 (⟨(i 0).val, (i 0).isLt⟩ : Fin 2048) (0 : Fin 1))

/-- The body's product at an index of the block: the entry times the gate of its row within the block (the gate
    column is broadcast along the columns). -/
theorem pay_apply (x0 : Vec Ideal S32x36864 .f32) (x1 : Vec Ideal S32x1 .f32) (j : S32x36864.Idx) :
    k1_pay1 (F := Ideal) x0 x1 j = x0 j * x1 (ix2 (⟨(j 0).val, (j 0).isLt⟩ : Fin 32) (0 : Fin 1)) := by
  unfold k1_pay1
  dsimp only
  rw [mulf_apply, shapeCast_self, shapeCast_self]
  refine congrArg (x0 j * ·) ?_
  refine broadcastTo_apply x1 _ j _ (fun a => ?_)
  match a with
  | ⟨0, _⟩ => rfl
  | ⟨1, _⟩ => rfl

/-- The three windows' block indices at point `t`: block row `t`, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Every block row is some point's. -/
theorem idx_onto1 : ∀ q : Fin 64, ∃ t : Fin cfg1.N, t.val = q.val :=
  (by decide +kernel : ∀ q : Fin 64, ∃ t : Fin grid1.N, t.val = q.val)

variable (V : (c : Dev nD) → (b : Ref sig .tc) → Buf (Elt Ideal) ((c : Thread nD τ).loc b))

/-- What point `t` writes back is block `t` of the row-scaled array. -/
theorem flushed1_2_eq (c : Dev nD) (t : Fin cfg1.N) :
    (dat1 (F := Ideal) V c).flushed 2 t = ((cfg1.win 2).blk t).view.read (Elt Ideal) (rowScaled (V c main_v0) (V c main_v24)) := by
  show (cfg1.win 2).cut (grid1.coords t) ((dat1 (F := Ideal) V c).after 2 t) = _
  rw [after1_2]
  unfold out1_2
  rw [View.canon_unit_zero off_zero]
  simp only [View.ld_unit_zero (S := S32x36864) off_zero, View.ld_unit_zero (S := S32x1) off_zero]
  obtain ⟨e00, e01, e10, e11, e20, e21⟩ := idx_facts1 t
  funext j
  show k1_pay1 (F := Ideal) (iblk1 V c 0 t) (iblk1 V c 1 t) j = rowScaled (V c main_v0) (V c main_v24) (((cfg1.win 2).blk t).view.emb j)
  refine (pay_apply (iblk1 V c 0 t) (iblk1 V c 1 t) j).trans ?_
  show @HMul.hMul EReal EReal EReal _ (V c main_v0 (((cfg1.win 0).blk t).view.emb j)) (V c main_v24 (((cfg1.win 1).blk t).view.emb (ix2 (⟨(j 0).val, (j 0).isLt⟩ : Fin 32) (0 : Fin 1))))
    = @HMul.hMul EReal EReal EReal _ (V c main_v0 (((cfg1.win 2).blk t).view.emb j)) (V c main_v24 (ix2 (⟨((((cfg1.win 2).blk t).view.emb j) 0).val, ((((cfg1.win 2).blk t).view.emb j) 0).isLt⟩ : Fin 2048) (0 : Fin 1)))
  have h0 : ((cfg1.win 0).blk t).view.emb j = ((cfg1.win 2).blk t).view.emb j := by
    funext a; apply Fin.ext
    match a with
    | ⟨0, _⟩ => show win1_0.index t (0 : Fin 2) * 32 + 1 * (j 0).val = win1_2.index t (0 : Fin 2) * 32 + 1 * (j 0).val; omega
    | ⟨1, _⟩ => show win1_0.index t (1 : Fin 2) * 36864 + 1 * (j 1).val = win1_2.index t (1 : Fin 2) * 36864 + 1 * (j 1).val; omega
  have h1 : ((cfg1.win 1).blk t).view.emb (ix2 (⟨(j 0).val, (j 0).isLt⟩ : Fin 32) (0 : Fin 1))
      = ix2 (⟨((((cfg1.win 2).blk t).view.emb j) 0).val, ((((cfg1.win 2).blk t).view.emb j) 0).isLt⟩ : Fin 2048) (0 : Fin 1) := by
    funext a; apply Fin.ext
    match a with
    | ⟨0, _⟩ => show win1_1.index t (0 : Fin 2) * 32 + 1 * (j 0).val = win1_2.index t (0 : Fin 2) * 32 + 1 * (j 0).val; omega
    | ⟨1, _⟩ => show win1_1.index t (1 : Fin 2) * 1 + 1 * 0 = 0; omega
  rw [h0, h1]

/-- An index of the array is in point `t`'s block iff each coordinate is in the block's range on its axis. -/
theorem mem_blk1_2 (t : Fin cfg1.N) (i : S2048x36864.Idx) :
    i ∈ ((cfg1.win 2).blk t).view.set ↔ ∀ a : Fin 2, win1_2.index t a * S32x36864.size a ≤ (i a).val ∧ (i a).val < win1_2.index t a * S32x36864.size a + S32x36864.size a := by
  show i ∈ ((View.whole main_v25).slice (win1_2.rect t)).set ↔ _
  rw [View.set_slice_whole, Rect.mem_set_unit]
  exact Iff.rfl

/-- Row `r` lies in the block of point `r / 32`: the blocks cover the array. -/
theorem covered1_2 (i : S2048x36864.Idx) :
    ∃ t : Fin cfg1.N, (cfg1.win 2).flush t = true ∧ i ∈ ((cfg1.win 2).blk t).view.set := by
  have hi0 : (i 0).val < 2048 := (i 0).isLt
  have hi1 : (i 1).val < 36864 := (i 1).isLt
  obtain ⟨t, ht⟩ := idx_onto1 ⟨(i 0).val / 32, by omega⟩
  have ht' : t.val = (i 0).val / 32 := ht
  obtain ⟨e00, e01, e10, e11, e20, e21⟩ := idx_facts1 t
  refine ⟨t, flush1_2 t, ?_⟩
  rw [mem_blk1_2]
  intro a
  match a with
  | ⟨0, _⟩ => show win1_2.index t (0 : Fin 2) * 32 ≤ (i 0).val ∧ (i 0).val < win1_2.index t (0 : Fin 2) * 32 + 32; omega
  | ⟨1, _⟩ => show win1_2.index t (1 : Fin 2) * 36864 ≤ (i 1).val ∧ (i 1).val < win1_2.index t (1 : Fin 2) * 36864 + 36864; omega

/-- The output array after the region: every entry of the first input times its row's gate. -/
theorem final1_2 (c : Dev nD) :
    (dat1 (F := Ideal) V c).arrAt 2 cfg1.N
      = fun i => @HMul.hMul EReal EReal EReal _ (V c main_v0 i) (V c main_v24 (ix2 (⟨(i 0).val, (i 0).isLt⟩ : Fin 2048) (0 : Fin 1))) :=
  (dat1 (F := Ideal) V c).arrAt_eq_of_cover 2 (rowScaled (V c main_v0) (V c main_v24))
    (fun t _ => flushed1_2_eq V c t) covered1_2

end Cert.KernelIdeal.Hand

end
-- ==== Proof.R0Block.lean ====
import proofs.«115023_j34445637714659_2_alg».proof.Proof.R0Frame
import Idealize.ShloMosaic.Lib.Pipeline.Value
import Idealize.ShloMosaic.Lib.ValueIdx

/-! # The first region's blocks, read at an index

The sum-of-squares region walks an 8 x 36 grid row block by row block: point `t` is row block `t / 36`, column tile
`t % 36`. Its input block at `t` is rows `256 (t / 36) …` and columns `1024 (t % 36) …` of the input array; its
output block is rows `256 (t / 36) …` of the [2048,1] output array, written back exactly at the last tile of each row
block (`t % 36 = 35`). So row `R` of the output array is written once, by point `36 (R / 256) + 35`, and the
array after the region is whatever those eight points leave in the output block. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The two windows' block indices at point `t`: the input's is (row block, tile), the output's (row block, 0). -/
theorem idx_facts0 : ∀ t : Fin cfg0.N, win0_0.index t (0 : Fin 2) = t.val / 36 ∧ win0_0.index t (1 : Fin 2) = t.val % 36
    ∧ win0_1.index t (0 : Fin 2) = t.val / 36 ∧ win0_1.index t (1 : Fin 2) = 0 :=
  (by decide +kernel : ∀ t : Fin grid0.N, _)

/-- Every row block has a last tile among the points. -/
theorem last_tile0 : ∀ q : Fin 8, ∃ t : Fin cfg0.N, t.val = 36 * q.val + 35 :=
  (by decide +kernel : ∀ q : Fin 8, ∃ t : Fin grid0.N, t.val = 36 * q.val + 35)

/-- The grid has 288 points. -/
theorem lt_288 (t : Fin cfg0.N) : t.val < 288 := lt_of_lt_of_eq t.isLt (show cfg0.N = 288 from N_0)

variable (V : (c : Dev nD) → (b : Ref sig .tc) → Buf (Elt Ideal) ((c : Thread nD τ).loc b))

/-- The input block at point `t`, at row `r` and column `l` of the block, is the input array at row
    `256 (t / 36) + r`, column `1024 (t % 36) + l`. -/
theorem iblk0_0_apply (c : Dev nD) (t : Fin cfg0.N) (r : Fin 256) (l : Fin 1024) :
    iblk0 V c 0 t (ix2 r l : S256x1024.Idx)
      = V c main_v0 (ix2 (⟨256 * (t.val / 36) + r.val, by have := lt_288 t; have := r.isLt; omega⟩ : Fin 2048)
          (⟨1024 * (t.val % 36) + l.val, by have := l.isLt; omega⟩ : Fin 36864)) := by
  obtain ⟨e0, e1, -, -⟩ := idx_facts0 t
  show V c main_v0 (((cfg0.win 0).blk t).view.emb (ix2 r l : S256x1024.Idx)) = _
  refine congrArg (V c main_v0 : S2048x36864.Idx → EReal) ?_
  funext a; apply Fin.ext
  match a with
  | ⟨0, _⟩ => show win0_0.index t (0 : Fin 2) * 256 + 1 * r.val = 256 * (t.val / 36) + r.val; omega
  | ⟨1, _⟩ => show win0_0.index t (1 : Fin 2) * 1024 + 1 * l.val = 1024 * (t.val % 36) + l.val; omega

/-- An index of the output array is in point `t`'s block iff each coordinate is in the block's range on its axis. -/
theorem mem_blk0_1 (t : Fin cfg0.N) (i : S2048x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v1).slice (win0_1.rect t)).set ↔ _
  rw [View.set_slice_whole, Rect.mem_set_unit]
  exact Iff.rfl

/-- Row `R` of the output array lies in the block of the last tile of row block `R / 256`, which writes back. -/
theorem covered0_1 (i : S2048x1.Idx) :
    ∃ t : Fin cfg0.N, (cfg0.win 1).flush t = true ∧ i ∈ ((cfg0.win 1).blk t).view.set := by
  have hi0 : (i 0).val < 2048 := (i 0).isLt
  have hi1 : (i 1).val < 1 := (i 1).isLt
  obtain ⟨t, ht⟩ := last_tile0 ⟨(i 0).val / 256, by omega⟩
  have ht' : t.val = 36 * ((i 0).val / 256) + 35 := ht
  obtain ⟨-, -, e0, e1⟩ := idx_facts0 t
  refine ⟨t, (flush0_1 t).mpr (by omega), ?_⟩
  rw [mem_blk0_1]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1 ≤ (i 1).val ∧ (i 1).val < win0_1.index t (1 : Fin 2) * 1 + 1; omega

/-- The output array after the region is `Gf` as soon as, at every last tile, the output block the body leaves is
    `Gf` on the row block's rows: only those points write back, and their blocks cover the array. -/
theorem final0_1_of (c : Dev nD) (Gf : S2048x1.Idx → EReal)
    (h : ∀ t : Fin cfg0.N, t.val % 36 = 35 → ∀ r : Fin 256,
      (dat0 (F := Ideal) V c).after 1 t (ix2 r (0 : Fin 1) : S256x1.Idx)
        = Gf (ix2 (⟨256 * (t.val / 36) + r.val, by have := lt_288 t; have := r.isLt; omega⟩ : Fin 2048) (0 : Fin 1))) :
    (dat0 (F := Ideal) V c).arrAt 1 cfg0.N = Gf := by
  refine (dat0 (F := Ideal) V c).arrAt_eq_of_cover 1 Gf (fun t hf => ?_) covered0_1
  have ht : t.val % 36 = 35 := (flush0_1 t).mp hf
  obtain ⟨-, -, e0, e1⟩ := idx_facts0 t
  show (cfg0.win 1).cut (grid0.coords t) ((dat0 (F := Ideal) V c).after 1 t) = _
  funext j
  show (dat0 (F := Ideal) V c).after 1 t j = Gf (((cfg0.win 1).blk t).view.emb j)
  obtain ⟨p, q, rfl⟩ : ∃ (p : Fin 256) (q : Fin 1), j = ix2 p q := ⟨j 0, j 1, eq_ix2 j⟩
  obtain rfl : q = 0 := Subsingleton.elim _ _
  refine (h t ht p).trans (congrArg Gf ?_)
  funext a; apply Fin.ext
  match a with
  | ⟨0, _⟩ => show 256 * (t.val / 36) + p.val = win0_1.index t (0 : Fin 2) * 256 + 1 * p.val; omega
  | ⟨1, _⟩ => show 0 = win0_1.index t (1 : Fin 2) * 1 + 1 * 0; omega

end Cert.KernelIdeal.Hand

end
-- ==== Proof.R0Pieces.lean ====
/-
  What each case of region 0's body leaves, as the skeleton's payload: in the first case the scratch ends at the
  tile's row sums added to the stored zeros; in the other two at the tile's row sums added to what the scratch held;
  in the last case the output block receives exactly what the scratch then holds.
-/
import proofs.«115023_j34445637714659_2_alg».proof.Proof.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off00 : (![0, 0] : Fin 2 → Nat) = fun _ => 0 := funext fun a => by fin_cases a <;> rfl

theorem sout0_A_0_eq (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i) (x0 : Vec F S256x1024 .f32) :
    sout0_A_0 c i arg2 harg2 arg3 harg3 arg4 harg4 hc0 hc1 x0 = k0_pay2 x0 (k0_pay1 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero off00]
  simp only [View.readAt_eq_ld, harg2.read_unread, View.ld_unit_zero (S := S256x1024) off00]
  rw [View.readCov_unit_zero (S := S256x1) arg4.view off00]

theorem sout0_B_0_eq (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i) (x0 : Vec F S256x1024 .f32) (xs0 : Vec F S256x1 .f32) :
    sout0_B_0 c i arg2 harg2 arg3 harg3 arg4 harg4 hc0 hc1 x0 xs0 = k0_pay2 x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero off00]
  simp only [View.readAt_eq_ld, harg2.read_unread, harg4.read_unread, View.ld_unit_zero (S := S256x1024) off00, View.ld_unit_zero (S := S256x1) off00]

theorem sout0_C_0_eq (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i) (x0 : Vec F S256x1024 .f32) (xs0 : Vec F S256x1 .f32) :
    sout0_C_0 c i arg2 harg2 arg3 harg3 arg4 harg4 hc0 hc1 x0 xs0 = k0_pay2 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero off00]
  simp only [View.readAt_eq_ld, harg2.read_unread, harg4.read_unread, View.ld_unit_zero (S := S256x1024) off00, View.ld_unit_zero (S := S256x1) off00]

theorem out0_C_1_eq (c : Dev nD) (i : grid0.Coords) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i) (x0 : Vec F S256x1024 .f32) (xs0 : Vec F S256x1 .f32) :
    out0_C_1 c i arg2 harg2 arg3 harg3 arg4 harg4 hc0 hc1 x0 xs0 = k0_pay2 x0 xs0 := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero off00]
  simp only [View.readAt_eq_ld, harg2.read_unread, harg4.read_unread, View.ld_unit_zero (S := S256x1024) off00, View.ld_unit_zero (S := S256x1) off00]
  exact View.readCov_unit_zero (S := S256x1) arg4.view off00 _ _

end Cert.KernelIdeal.Hand

end
-- ==== Proof.Regroup.lean ====
/-
  Regrouping sums over the extended reals.

  Addition on the extended reals is commutative and associative (a commutative monoid), so a finite sum may be
  regrouped freely; no finiteness of the terms is used anywhere below.

  * A running total that starts at 0 and adds one tile's sum per step ends at the double sum over tiles and lanes.
  * A sum over 36864 consecutive positions, cut into 36 tiles of 1024 or into 192 rows of 192, is the same sum.
-/
import Mathlib.Data.EReal.Basic
import Mathlib.Data.Fintype.BigOperators
import Mathlib.Logic.Equiv.Fin.Basic
import Mathlib.Algebra.BigOperators.Group.Finset.Basic
import Mathlib.Tactic.Ring

namespace Cert.Spec

open scoped BigOperators

/-- The running total after the first `n` steps: it starts at 0 and step `t` adds `0 + g t`. -/
noncomputable def accum (g : ℕ → EReal) : ℕ → EReal
  | 0 => 0
  | n + 1 => accum g n + (0 + g n)

@[simp] theorem accum_zero (g : ℕ → EReal) : accum g 0 = 0 := rfl
theorem accum_succ (g : ℕ → EReal) (n : ℕ) : accum g (n + 1) = accum g n + (0 + g n) := rfl

/-- Any sequence that starts at 0 and adds `0 + g t` at step `t < N` is, after `n ≤ N` steps, the sum of the first `n` terms. -/
theorem running_total (N : ℕ) (g : ℕ → EReal) (s : ℕ → EReal) (h0 : s 0 = 0)
    (hstep : ∀ t, t < N → s (t + 1) = s t + (0 + g t)) :
    ∀ n, n ≤ N → s n = ∑ t ∈ Finset.range n, g t := by
  intro n
  induction n with
  | zero => intro _; simpa using h0
  | succ k ih =>
    intro hk
    rw [hstep k (Nat.lt_of_succ_le hk), ih (Nat.le_of_succ_le hk), zero_add, Finset.sum_range_succ]

theorem accum_eq_sum (g : ℕ → EReal) (n : ℕ) : accum g n = ∑ t ∈ Finset.range n, g t :=
  running_total n g (accum g) rfl (fun t _ => accum_succ g t) n le_rfl

/-- The tiled accumulation: a sequence of totals `s 0, s 1, …, s 36` with `s 0 = 0` and
    `s (t + 1) = s t + (0 + ∑ l, f t l)` ends at the double sum over the 36 tiles and the 1024 lanes. -/
theorem tiled_sum (f : Fin 36 → Fin 1024 → EReal) (s : ℕ → EReal) (h0 : s 0 = 0)
    (hstep : ∀ t (ht : t < 36), s (t + 1) = s t + (0 + ∑ l : Fin 1024, f ⟨t, ht⟩ l)) :
    s 36 = ∑ t : Fin 36, ∑ l : Fin 1024, f t l := by
  have h := running_total 36 (fun t => if ht : t < 36 then ∑ l : Fin 1024, f ⟨t, ht⟩ l else 0) s h0
    (fun t ht => by rw [hstep t ht, dif_pos ht]) 36 le_rfl
  rw [h, ← Fin.sum_univ_eq_sum_range (fun t => if ht : t < 36 then ∑ l : Fin 1024, f ⟨t, ht⟩ l else 0) 36]
  exact Finset.sum_congr rfl fun t _ => by rw [dif_pos t.isLt]

/-- The same with the leading zero of the reference's sum kept. -/
theorem tiled_sum_zero_add (f : Fin 36 → Fin 1024 → EReal) (s : ℕ → EReal) (h0 : s 0 = 0)
    (hstep : ∀ t (ht : t < 36), s (t + 1) = s t + (0 + ∑ l : Fin 1024, f ⟨t, ht⟩ l)) :
    s 36 = 0 + ∑ t : Fin 36, ∑ l : Fin 1024, f t l := by
  rw [zero_add]; exact tiled_sum f s h0 hstep

/-- The closed form of the recursive running total over the tiles. -/
theorem accum_tiles (f : Fin 36 → Fin 1024 → EReal) :
    accum (fun t => if ht : t < 36 then ∑ l : Fin 1024, f ⟨t, ht⟩ l else 0) 36
      = ∑ t : Fin 36, ∑ l : Fin 1024, f t l :=
  tiled_sum f _ rfl (fun t ht => by rw [accum_succ, dif_pos ht])

/-- A sum over `m * n` consecutive positions is the sum over `m` blocks of `n`. -/
theorem sum_blocks {M : Type*} [AddCommMonoid M] (m n : ℕ) (g : Fin (m * n) → M) :
    ∑ k : Fin (m * n), g k
      = ∑ i : Fin m, ∑ j : Fin n, g ⟨n * i.val + j.val, by
          have hi := i.isLt; have hj := j.isLt
          calc n * i.val + j.val < n * i.val + n := by omega
            _ = n * (i.val + 1) := by ring
            _ ≤ n * m := Nat.mul_le_mul_left n hi
            _ = m * n := Nat.mul_comm n m⟩ := by
  rw [← Equiv.sum_comp finProdFinEquiv g, Fintype.sum_prod_type]
  refine Finset.sum_congr rfl fun i _ => Finset.sum_congr rfl fun j _ => congrArg g (Fin.ext ?_)
  simp [finProdFinEquiv, Nat.add_comm]

/-- 36 tiles of 1024 lanes and 192 rows of 192 columns enumerate the same 36864 positions. -/
theorem flat_sum (g : Fin 36864 → EReal) :
    ∑ t : Fin 36, ∑ l : Fin 1024, g ⟨1024 * t.val + l.val, by have := t.isLt; have := l.isLt; omega⟩
      = ∑ h : Fin 192, ∑ w : Fin 192, g ⟨192 * h.val + w.val, by have := h.isLt; have := w.isLt; omega⟩ :=
  (sum_blocks 36 1024 g).symm.trans (sum_blocks 192 192 g)

end Cert.Spec
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.R0Acc.lean ====
import proofs.«115023_j34445637714659_2_alg».proof.Proof.R0Block
import proofs.«115023_j34445637714659_2_alg».proof.Proof.R0Pieces
import proofs.«115023_j34445637714659_2_alg».proof.Proof.Regroup
import proofs.«115023_j34445637714659_2_alg».proof.Proof.LibColumn
import Idealize.ShloMosaic.PureOps.Ideal.Laws
import Idealize.ShloMosaic.Lib.Pipeline.Value
import Idealize.ShloMosaic.Lib.ValueIdx
import Idealize.ShloMosaic.Lib.ValueLayout

/-! # The first region's accumulation, at the extended reals

Within a row block the scratch column is a running total: tile 0 stores zeros and adds the tile's row sums of
squares, every later tile adds its own to what the tile before left. After tile `k` of row block `q`, row `r` of the
scratch holds the sum over tiles `0 … k` of the sums of squares of row `256 q + r` over the tile's 1024 columns.
The last tile copies the scratch into the output block, so the output array ends, at row `R`, at the sum of the
squares of the whole row: 36 tiles of 1024 columns are the row's 36864 columns. Only commutativity and
associativity of addition are used; nothing needs the entries to be finite. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The body's two payloads at an index -/

/-- The stored zeros: the broadcast of the zero word is the extended real 0 at every index. -/
theorem pay1_apply (y : S256x1.Idx) : k0_pay1 (F := Ideal) y = 0 := by
  unfold k0_pay1
  (try dsimp only)
  rw [shapeCast_self]
  exact Ideal.ofBits_zero_f32

/-- The accumulated column at row `r`: what the scratch held there plus the sum of the squares of the block's row. -/
theorem pay2_apply_sum (x0 : Vec Ideal S256x1024 .f32) (xs : Vec Ideal S256x1 .f32) (r : Fin 256) :
    k0_pay2 (F := Ideal) x0 xs (ix2 r (0 : Fin 1)) = xs (ix2 r 0) + ∑ l : Fin 1024, x0 (ix2 r l) * x0 (ix2 r l) := by
  unfold k0_pay2
  dsimp only
  rw [shapeCast_self, shapeCast_self]
  refine (addf_apply _ _ _).trans ?_
  refine congrArg (xs (ix2 r 0) + ·) ?_
  refine (Cert.LibColumn.shapeCast_a_a1_apply _ _ r 0).trans ?_
  refine (Ideal.multiReduction_add_single _ _ _ _ _ (ix1 r)).trans ?_
  refine Finset.sum_congr rfl fun l _ => ?_
  have e : reduces_S256x1024_S256.lift (ix1 r) l = ix2 r l := by
    funext a; apply Fin.ext
    match a with
    | ⟨0, _⟩ => rfl
    | ⟨1, _⟩ => rfl
  rw [e]
  rfl

/-- The same with a leading zero kept in front of the lane sum (the form of a running total's step). -/
theorem pay2_apply (x0 : Vec Ideal S256x1024 .f32) (xs : Vec Ideal S256x1 .f32) (r : Fin 256) :
    k0_pay2 (F := Ideal) x0 xs (ix2 r (0 : Fin 1)) = xs (ix2 r 0) + (0 + ∑ l : Fin 1024, x0 (ix2 r l) * x0 (ix2 r l)) := by
  rw [zero_add]; exact pay2_apply_sum x0 xs r

/-! ## Rows and tiles -/

/-- Row `r` of the row block that point `n` works on. -/
def rowAt (n : ℕ) (hn : n < 288) (r : Fin 256) : Fin 2048 := ⟨256 * (n / 36) + r.val, by have := r.isLt; omega⟩

/-- The sum of the squares of row `R` of `x` over column tile `k` (zero past the last tile). -/
def tileSq (x : S2048x36864.Idx → EReal) (R : Fin 2048) (k : ℕ) : EReal :=
  if hk : k < 36 then
    ∑ l : Fin 1024, x (ix2 R (⟨1024 * k + l.val, by have := l.isLt; omega⟩ : Fin 36864)) * x (ix2 R (⟨1024 * k + l.val, by have := l.isLt; omega⟩ : Fin 36864))
  else 0

/-- The sum of the squares of the whole row `i 0` of `x`. -/
def rowSq (x : S2048x36864.Idx → EReal) : S2048x1.Idx → EReal :=
  fun i => ∑ k : Fin 36864, x (ix2 (⟨(i 0).val, (i 0).isLt⟩ : Fin 2048) k) * x (ix2 (⟨(i 0).val, (i 0).isLt⟩ : Fin 2048) k)

/-- One step of the running total: when the block's row `r` is row `R`, tile `k` of `x`, the accumulated column
    at `r` is what the scratch held plus that tile's sum of squares. -/
theorem scratch_step (x : S2048x36864.Idx → EReal) (x0 : Vec Ideal S256x1024 .f32) (xs : Vec Ideal S256x1 .f32)
    (R : Fin 2048) (k : ℕ) (hk : k < 36) (r : Fin 256)
    (hx : ∀ l : Fin 1024, x0 (ix2 r l) = x (ix2 R (⟨1024 * k + l.val, by have := l.isLt; omega⟩ : Fin 36864))) :
    k0_pay2 (F := Ideal) x0 xs (ix2 r (0 : Fin 1)) = xs (ix2 r 0) + (0 + tileSq x R k) := by
  refine (pay2_apply x0 xs r).trans ?_
  unfold tileSq
  rw [dif_pos hk]
  refine congrArg (fun z => xs (ix2 r 0) + (0 + z)) ?_
  exact Finset.sum_congr rfl fun l _ => by rw [hx l]

variable (V : (c : Dev nD) → (b : Ref sig .tc) → Buf (Elt Ideal) ((c : Thread nD τ).loc b))

/-! ## The invariant -/

/-- After point `n`, row `r` of the scratch is the running total of the tiles `0 … n % 36` of its row. -/
theorem scratch_eq (c : Dev nD) : ∀ (n : ℕ) (hn : n < cfg0.N) (r : Fin 256),
    (outsAt0 (F := Ideal) V c n hn).2 (ix2 r (0 : Fin 1) : S256x1.Idx)
      = Cert.Spec.accum (tileSq (V c main_v0) (rowAt n (lt_of_lt_of_eq hn N_0) r)) (n % 36 + 1) := by
  intro n
  induction n using Nat.strong_induction_on with
  | _ n ih =>
    intro hn r
    have hn' : n < 288 := lt_of_lt_of_eq hn N_0
    have hk : n % 36 < 36 := Nat.mod_lt _ (by decide)
    by_cases h0 : n % 36 = 0
    · have h1 : ¬ n % 36 = 35 := by omega
      have e := outsAt0_A (F := Ideal) V c ⟨n, hn⟩ h0 h1
      rw [show outsAt0 (F := Ideal) V c n hn = outsAt0 (F := Ideal) V c (⟨n, hn⟩ : Fin cfg0.N).val (⟨n, hn⟩ : Fin cfg0.N).isLt from rfl, e]
      dsimp only
      rw [sout0_A_0_eq]
      refine (scratch_step (V c main_v0) (iblk0 V c 0 ⟨n, hn⟩) (k0_pay1 (F := Ideal)) (rowAt n hn' r) (n % 36) hk r
        (fun l => iblk0_0_apply V c ⟨n, hn⟩ r l)).trans ?_
      rw [pay1_apply, h0]
      rfl
    · have hz : n ≠ 0 := fun h => h0 (by rw [h])
      have hprev : n - 1 < cfg0.N := lt_of_le_of_lt (Nat.sub_le _ _) hn
      have eR : rowAt (n - 1) (lt_of_lt_of_eq hprev N_0) r = rowAt n hn' r :=
        Fin.ext (by show 256 * ((n - 1) / 36) + r.val = 256 * (n / 36) + r.val; omega)
      have ek : (n - 1) % 36 + 1 = n % 36 := by omega
      have step : ∀ xs : Vec Ideal S256x1 .f32,
          xs (ix2 r 0) = Cert.Spec.accum (tileSq (V c main_v0) (rowAt n hn' r)) (n % 36) →
          k0_pay2 (F := Ideal) (iblk0 V c 0 ⟨n, hn⟩) xs (ix2 r (0 : Fin 1))
            = Cert.Spec.accum (tileSq (V c main_v0) (rowAt n hn' r)) (n % 36 + 1) := fun xs hxs =>
        (scratch_step (V c main_v0) (iblk0 V c 0 ⟨n, hn⟩) xs (rowAt n hn' r) (n % 36) hk r
          (fun l => iblk0_0_apply V c ⟨n, hn⟩ r l)).trans (by rw [hxs]; rfl)
      have hprevval : (outsAt0 (F := Ideal) V c (n - 1) hprev).2 (ix2 r (0 : Fin 1) : S256x1.Idx)
          = Cert.Spec.accum (tileSq (V c main_v0) (rowAt n hn' r)) (n % 36) := by
        rw [ih (n - 1) (by omega) hprev r, eR, ek]
      by_cases h1 : n % 36 = 35
      · have e := outsAt0_C (F := Ideal) V c ⟨n, hn⟩ h0 h1
        rw [show outsAt0 (F := Ideal) V c n hn = outsAt0 (F := Ideal) V c (⟨n, hn⟩ : Fin cfg0.N).val (⟨n, hn⟩ : Fin cfg0.N).isLt from rfl, e]
        dsimp only
        rw [sout0_C_0_eq]
        exact step _ hprevval
      · have e := outsAt0_B (F := Ideal) V c ⟨n, hn⟩ h0 h1
        rw [show outsAt0 (F := Ideal) V c n hn = outsAt0 (F := Ideal) V c (⟨n, hn⟩ : Fin cfg0.N).val (⟨n, hn⟩ : Fin cfg0.N).isLt from rfl, e]
        dsimp only
        rw [sout0_B_0_eq]
        exact step _ hprevval

/-- At the last tile of a row block the output block receives exactly what the scratch then holds. -/
theorem out_eq_scratch (c : Dev nD) (t : Fin cfg0.N) (h1 : t.val % 36 = 35) :
    (outsAt0 (F := Ideal) V c t.val t.isLt).1 = (outsAt0 (F := Ideal) V c t.val t.isLt).2 := by
  have h0 : ¬ t.val % 36 = 0 := by omega
  rw [outsAt0_C (F := Ideal) V c t h0 h1]
  dsimp only
  rw [out0_C_1_eq, sout0_C_0_eq]

/-! ## The output array -/

/-- The running total over all 36 tiles of a row is the sum of the squares of the row's 36864 entries. -/
theorem accum_row (x : S2048x36864.Idx → EReal) (R : Fin 2048) :
    Cert.Spec.accum (tileSq x R) 36 = ∑ k : Fin 36864, x (ix2 R k) * x (ix2 R k) := by
  have h := Cert.Spec.accum_tiles (fun (t : Fin 36) (l : Fin 1024) =>
    x (ix2 R (⟨1024 * t.val + l.val, by have := t.isLt; have := l.isLt; omega⟩ : Fin 36864)) * x (ix2 R (⟨1024 * t.val + l.val, by have := t.isLt; have := l.isLt; omega⟩ : Fin 36864)))
  refine Eq.trans ?_ (h.trans ?_)
  · rfl
  · exact (Cert.Spec.sum_blocks 36 1024 (fun k : Fin (36 * 1024) => x (ix2 R (k : Fin 36864)) * x (ix2 R (k : Fin 36864)))).symm

/-- The output array after the region: at row `R`, the sum of the squares of row `R` of the input array. -/
theorem final0_1 (c : Dev nD) :
    (dat0 (F := Ideal) V c).arrAt 1 cfg0.N
      = fun i => ∑ k : Fin 36864, @HMul.hMul EReal EReal EReal _ (V c main_v0 (ix2 (⟨(i 0).val, (i 0).isLt⟩ : Fin 2048) k)) (V c main_v0 (ix2 (⟨(i 0).val, (i 0).isLt⟩ : Fin 2048) k)) := by
  refine final0_1_of V c (rowSq (V c main_v0)) (fun t ht r => ?_)
  rw [after0_1, out_eq_scratch V c t ht]
  refine (scratch_eq V c t.val t.isLt r).trans ?_
  rw [ht]
  exact accum_row (V c main_v0) _

end Cert.KernelIdeal.Hand

end
-- ==== Proof.Bridge.lean ====
/-
  The reshapes between the [8, 256, 192, 192] arrays and their [2048, 36864] and [2048, 1] flattenings, and the
  flattened computation as the specification.

  A reshape keeps row-major positions. Plane (n, c) of the four-axis array is row 256 n + c of the flattened one, and
  position (h, w) of the plane is column 192 h + w of the row: ((256 n + c) 192 + h) 192 + w = (256 n + c) 36864 + (192 h + w).
  Likewise entry (n, c) of an [8, 256] array is entry (256 n + c, 0) of its [2048, 1] column.

  So: the row sums of squares of the flattened input, reshaped to [8, 256], are the planes' sums of squares (a sum over
  36864 columns is the sum over 192 rows of 192); and each flattened entry times its row's gate, reshaped back, is each
  element times the gate of its plane. The gate chain is one function of the sums and is not opened.
-/
import proofs.«115023_j34445637714659_2_alg».proof.Proof.Gen.KernelIdeal
import proofs.«115023_j34445637714659_2_alg».proof.Proof.Spec
import proofs.«115023_j34445637714659_2_alg».proof.Proof.Regroup
import proofs.«115023_j34445637714659_2_alg».proof.Proof.R1Value
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- The flattened row of plane (n, c). -/
abbrev rowOf (n : Fin 8) (c : Fin 256) : Fin 2048 :=
  ⟨256 * n.val + c.val, by have := n.isLt; have := c.isLt; omega⟩

/-- The flattened column of position (h, w) of a plane. -/
abbrev colOf (h w : Fin 192) : Fin 36864 :=
  ⟨192 * h.val + w.val, by have := h.isLt; have := w.isLt; omega⟩

section Reshapes
variable {α : Type}

/-- The flattened array at (row of (n, c), column of (h, w)) is the array at (n, c, h, w). -/
theorem flat_apply (a0 : S8x256x192x192.Idx → α) (n : Fin 8) (c : Fin 256) (h w : Fin 192) :
    shapeCast S2048x36864 a0 shapeCasts_S8x256x192x192_S2048x36864 (ix2 (rowOf n c) (colOf h w)) = a0 (ix4 n c h w) :=
  shapeCast_apply a0 _ _ (ix4 n c h w) (by
    rw [Shape.rowMajor_val_four, Shape.rowMajor_val_two]
    show ((n.val * 256 + c.val) * 192 + h.val) * 192 + w.val = (256 * n.val + c.val) * 36864 + (192 * h.val + w.val)
    omega)

/-- The four-axis reshape of a flattened array at (n, c, h, w) is the array at (row of (n, c), column of (h, w)). -/
theorem unflat_apply (y : S2048x36864.Idx → α) (n : Fin 8) (c : Fin 256) (h w : Fin 192) :
    shapeCast S8x256x192x192 y shapeCasts_S2048x36864_S8x256x192x192 (ix4 n c h w) = y (ix2 (rowOf n c) (colOf h w)) :=
  shapeCast_apply y _ _ (ix2 (rowOf n c) (colOf h w)) (by
    rw [Shape.rowMajor_val_two, Shape.rowMajor_val_four]
    show (256 * n.val + c.val) * 36864 + (192 * h.val + w.val) = ((n.val * 256 + c.val) * 192 + h.val) * 192 + w.val
    omega)

/-- The [8, 256] reshape of a [2048, 1] column at (n, c) is the column at the row of (n, c). -/
theorem sums_apply (s : S2048x1.Idx → α) (n : Fin 8) (c : Fin 256) :
    shapeCast S8x256 s shapeCasts_S2048x1_S8x256 (ix2 n c) = s (ix2 (rowOf n c) (0 : Fin 1)) :=
  shapeCast_apply s _ _ (ix2 (rowOf n c) (0 : Fin 1)) (by
    rw [Shape.rowMajor_val_two, Shape.rowMajor_val_two]
    show (256 * n.val + c.val) * 1 + 0 = n.val * 256 + c.val
    omega)

/-- The [2048, 1] reshape of an [8, 256] array at the row of (n, c) is the array at (n, c). -/
theorem gate_apply (g : S8x256.Idx → α) (n : Fin 8) (c : Fin 256) :
    shapeCast S2048x1 g shapeCasts_S8x256_S2048x1 (ix2 (rowOf n c) (0 : Fin 1)) = g (ix2 n c) :=
  shapeCast_apply g _ _ (ix2 n c) (by
    rw [Shape.rowMajor_val_two, Shape.rowMajor_val_two]
    show n.val * 256 + c.val = (256 * n.val + c.val) * 1 + 0
    omega)

end Reshapes

/-- The sum of squares of each row of a [2048, 36864] array, as a [2048, 1] column. -/
def rowSums (x : S2048x36864.Idx → EReal) : S2048x1.Idx → EReal :=
  fun i => ∑ k : Fin 36864, x (ix2 (⟨(i 0).val, (i 0).isLt⟩ : Fin 2048) k) * x (ix2 (⟨(i 0).val, (i 0).isLt⟩ : Fin 2048) k)

theorem rowSums_ix2 (x : S2048x36864.Idx → EReal) (r : Fin 2048) :
    rowSums x (ix2 r (0 : Fin 1)) = ∑ k : Fin 36864, x (ix2 r k) * x (ix2 r k) := rfl

theorem rowScaled_ix2 (x : S2048x36864.Idx → EReal) (g : S2048x1.Idx → EReal) (r : Fin 2048) (k : Fin 36864) :
    rowScaled x g (ix2 r k) = x (ix2 r k) * g (ix2 r (0 : Fin 1)) := rfl

/-- A sum over the 36864 columns is the sum over 192 rows of 192. -/
theorem sum_cols (g : Fin 36864 → EReal) : ∑ k : Fin 36864, g k = ∑ h : Fin 192, ∑ w : Fin 192, g (colOf h w) :=
  Cert.Spec.sum_blocks 192 192 g

/-- The flattened input's row sums of squares, reshaped to [8, 256], are the planes' sums of squares. -/
theorem sums_eq_rowsq (a0 : FVec Ideal S8x256x192x192 .f32) :
    shapeCast S8x256 (rowSums (shapeCast S2048x36864 a0 shapeCasts_S8x256x192x192_S2048x36864)) shapeCasts_S2048x1_S8x256
      = Cert.Spec.rowsq a0 := by
  funext j
  obtain ⟨n, c, rfl⟩ : ∃ (n : Fin 8) (c : Fin 256), j = ix2 n c := ⟨j 0, j 1, eq_ix2 j⟩
  rw [sums_apply, rowSums_ix2, Cert.Spec.rowsq_apply, sum_cols]
  refine Finset.sum_congr rfl fun h _ => Finset.sum_congr rfl fun w _ => ?_
  rw [flat_apply]

/-- The flattened computation is the specification: flatten the input, take the row sums of squares, reshape them to
    [8, 256], apply the gate chain, reshape the gate to a column, scale each row by its gate, reshape back. -/
theorem kernel_is_G (a0 : FVec Ideal S8x256x192x192 .f32) (a1 : FVec Ideal S16x256 .f32) (a2 : FVec Ideal S16 .f32)
    (a3 : FVec Ideal S256x16 .f32) (a4 : FVec Ideal S256 .f32) :
    shapeCast S8x256x192x192
      (rowScaled (shapeCast S2048x36864 a0 shapeCasts_S8x256x192x192_S2048x36864)
        (shapeCast S2048x1
          (Cert.Spec.gateOf
            (shapeCast S8x256 (rowSums (shapeCast S2048x36864 a0 shapeCasts_S8x256x192x192_S2048x36864))
              shapeCasts_S2048x1_S8x256) a1 a2 a3 a4)
          shapeCasts_S8x256_S2048x1))
      shapeCasts_S2048x36864_S8x256x192x192
    = Cert.Spec.G a0 a1 a2 a3 a4 := by
  funext i
  obtain ⟨n, c, h, w, rfl⟩ : ∃ (n : Fin 8) (c : Fin 256) (h w : Fin 192), i = ix4 n c h w :=
    ⟨i 0, i 1, i 2, i 3, eq_ix4 i⟩
  rw [unflat_apply, rowScaled_ix2, flat_apply, gate_apply, sums_eq_rowsq, Cert.Spec.G_apply]

end Cert.KernelIdeal.Hand

end
-- ==== Proof.KernelValue.lean ====
/-
  The kernel's result as the specification of the argument arrays. Region 0 leaves in its output array each row's sum
  of squares of the reshaped input; the host chain turns the reshaped sums into the gate; region 1 leaves each entry
  of the reshaped input times its row's gate; the final reshape restores the four axes. Entry by entry that is the
  specification: the reshapes are bijections of indices, a row's sum over its 36864 columns is the double sum over the
  two spatial axes, and the host chain is the same function on both sides.
-/
import proofs.«115023_j34445637714659_2_alg».proof.Proof.HostReads
import proofs.«115023_j34445637714659_2_alg».proof.Proof.R1Value
import proofs.«115023_j34445637714659_2_alg».proof.Proof.R0Acc
import proofs.«115023_j34445637714659_2_alg».proof.Proof.Bridge

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- Region 0's output array after the region: the row sums of squares of the reshaped input. -/
theorem W2_v1 (c : Dev nD) :
    W2 m ρ c (Proc.devRef .tc main_v1)
      = rowSums (shapeCast S2048x36864 (m ((c : Thread nD τ).loc main_arg0)) shapeCasts_S8x256x192x192_S2048x36864) := by
  refine (W2_arr m ρ c 1).trans ((final0_1 (Vin0 m ρ) c).trans ?_)
  rw [Vin0_v0 m ρ c]
  rfl

/-- Region 1's second input array: the gate of the reshaped row sums, as a column. -/
theorem Vin1_v24 (c : Dev nD) :
    Vin1 m ρ c main_v24
      = shapeCast S2048x1 (Cert.Spec.gateOf (shapeCast S8x256 (rowSums (shapeCast S2048x36864 (m ((c : Thread nD τ).loc main_arg0)) shapeCasts_S8x256x192x192_S2048x36864)) shapeCasts_S2048x1_S8x256)
          (m ((c : Thread nD τ).loc main_arg1)) (m ((c : Thread nD τ).loc main_arg2)) (m ((c : Thread nD τ).loc main_arg3)) (m ((c : Thread nD τ).loc main_arg4))) shapeCasts_S8x256_S2048x1 := by
  refine (gate_chain (W2 m ρ c)).trans ?_
  rw [W2_v1 m ρ c, W2_untouched m ρ c main_arg1 (by decide) (by decide), W2_untouched m ρ c main_arg2 (by decide) (by decide),
    W2_untouched m ρ c main_arg3 (by decide) (by decide), W2_untouched m ρ c main_arg4 (by decide) (by decide)]

/-- The result array at the end is the specification of the argument arrays. -/
theorem result_eq (c : Dev nD) :
    W7 m ρ c (Proc.devRef .tc main_v26)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) := by
  refine (reshape_out (W6 m ρ c)).trans ?_
  rw [show W6 m ρ c (Proc.devRef .tc main_v25) = (dat1 (Vin1 m ρ) c).arrAt 2 cfg1.N from W6_arr m ρ c 2,
    final1_2 (Vin1 m ρ) c, Vin1_v0 m ρ c, Vin1_v24 m ρ c]
  exact kernel_is_G _ _ _ _ _

/-- The idealized kernel's run with its result named: the specification of the argument arrays, the arguments unchanged. -/
theorem run_result : θ_run (defs (F := Ideal)) (onTc (τ := τ) (main (F := Ideal))) ⟨m, fun _ => 0, ρ⟩ (fun r => ∀ c : Dev nD,
      r.2.mem ((c.tc : Thread nD τ).loc main_v26)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v26 (by decide))).trans (result_eq m ρ c),
     (h c _ (mem_uc main_arg0 (by decide))).trans (W7_untouched m ρ c main_arg0 (by decide) (by decide) (by decide) (by decide) (by decide) (by decide) (by decide)),
     (h c _ (mem_uc main_arg1 (by decide))).trans (W7_untouched m ρ c main_arg1 (by decide) (by decide) (by decide) (by decide) (by decide) (by decide) (by decide)),
     (h c _ (mem_uc main_arg2 (by decide))).trans (W7_untouched m ρ c main_arg2 (by decide) (by decide) (by decide) (by decide) (by decide) (by decide) (by decide)),
     (h c _ (mem_uc main_arg3 (by decide))).trans (W7_untouched m ρ c main_arg3 (by decide) (by decide) (by decide) (by decide) (by decide) (by decide) (by decide)),
     (h c _ (mem_uc main_arg4 (by decide))).trans (W7_untouched m ρ c main_arg4 (by decide) (by decide) (by decide) (by decide) (by decide) (by decide) (by decide))⟩)
    (run_all (F := Ideal) m ρ)

end Cert.KernelIdeal.Hand

end
-- ==== Proof.RefValue.lean ====
/-
  The reference's result is the specification G.

  The reference squares the input, sums the squares over the two plane axes from a zero initial value, feeds the
  [8, 256] sums to the gate chain, broadcasts the gate back over the planes and multiplies. Read index by index:
  the sum over the source indices that drop to (n, c) is the double sum over (h, w) of the element at (n, c, h, w)
  (the indices dropping to (n, c) are exactly those, once each); the zero word is the extended real 0; the two
  broadcasts read the gate at (n, c); the chain in the middle is the same composition of operations, unopened.
-/
import proofs.«115023_j34445637714659_2_alg».proof.Proof.Spec
import proofs.«115023_j34445637714659_2_alg».proof.Proof.Gen.ReferenceIdeal.Read

noncomputable section

namespace Cert.Spec

open Cert.ReferenceIdeal Cert.ReferenceIdeal.Gen Cert.ReferenceIdeal.Read Idealize.ShloMosaic

/-- Dropping the two plane axes of (n, c, h, w) leaves (n, c). -/
theorem drop_ix4 (hr : S8x256x192x192.ReducesTo [2, 3] S8x256) (n : Fin 8) (c : Fin 256) (h w : Fin 192) :
    hr.drop (ValueIdx.ix4 n c h w) = ValueIdx.ix2 n c :=
  funext fun b => Fin.ext (by
    match b with
    | ⟨0, _⟩ => exact hr.drop_apply_val_of_eq (ValueIdx.ix4 n c h w) 0 0
    | ⟨1, _⟩ => exact hr.drop_apply_val_of_eq (ValueIdx.ix4 n c h w) 1 1)

/-- An index that drops to (n, c) is (n, c, h, w) with its own two plane coordinates. -/
theorem eq_ix4_of_drop (hr : S8x256x192x192.ReducesTo [2, 3] S8x256) (n : Fin 8) (c : Fin 256)
    (i : S8x256x192x192.Idx) (hi : hr.drop i = ValueIdx.ix2 n c) :
    ValueIdx.ix4 n c (⟨(i 2).val, (i 2).isLt⟩ : Fin 192) (⟨(i 3).val, (i 3).isLt⟩ : Fin 192) = i := by
  have h0 : (i 0).val = n.val := by
    rw [← hr.drop_apply_val_of_eq i 0 0, hi]
  have h1 : (i 1).val = c.val := by
    rw [← hr.drop_apply_val_of_eq i 1 1, hi]
  funext a
  refine Fin.ext ?_
  match a with
  | ⟨0, _⟩ => exact h0.symm
  | ⟨1, _⟩ => exact h1.symm
  | ⟨2, _⟩ => rfl
  | ⟨3, _⟩ => rfl

/-- The sum over the source indices that drop to (n, c) is the double sum over the plane. -/
theorem sum_filter_drop_plane (hr : S8x256x192x192.ReducesTo [2, 3] S8x256) (x : S8x256x192x192.Idx → EReal)
    (n : Fin 8) (c : Fin 256) :
    ∑ i ∈ Finset.univ.filter (fun i => hr.drop i = ValueIdx.ix2 n c), x i
      = ∑ h : Fin 192, ∑ w : Fin 192, x (ValueIdx.ix4 n c h w) := by
  rw [← Fintype.sum_prod_type' (fun (h w : Fin 192) => x (ValueIdx.ix4 n c h w))]
  refine Finset.sum_nbij'
    (fun i => ((⟨(i 2).val, (i 2).isLt⟩ : Fin 192), (⟨(i 3).val, (i 3).isLt⟩ : Fin 192)))
    (fun p => ValueIdx.ix4 n c p.1 p.2) ?_ ?_ ?_ ?_ ?_
  · intro i _; exact Finset.mem_univ _
  · intro p _; exact Finset.mem_filter.mpr ⟨Finset.mem_univ _, drop_ix4 hr n c p.1 p.2⟩
  · intro i hi; exact eq_ix4_of_drop hr n c i (Finset.mem_filter.mp hi).2
  · intro p _; rfl
  · intro i hi; exact congrArg x (eq_ix4_of_drop hr n c i (Finset.mem_filter.mp hi).2).symm

/-- The reference's sum of squares over the plane axes, from the zero word, is `rowsq`. -/
theorem ref_rowsq (a0 : FVec Ideal S8x256x192x192 .f32) : val_main_v1 (F := Ideal) a0 = rowsq a0 := by
  funext j
  obtain ⟨n, c, rfl⟩ : ∃ (n : Fin 8) (c : Fin 256), j = ValueIdx.ix2 n c := ⟨j 0, j 1, ValueIdx.eq_ix2 j⟩
  rw [rowsq_apply]
  show Ideal.hostReduceAdd reducesTo_S8x256x192x192_S8x256_d2_3 (val_main_v0 (F := Ideal) a0)
      (Ideal.ofBits .f32 0x00000000#32) (ValueIdx.ix2 n c) = _
  unfold Ideal.hostReduceAdd
  rw [Ideal.ofBits_zero_f32, zero_add, sum_filter_drop_plane]
  rfl

/-- The reference's result, stage by stage, is `G`. -/
theorem ref_is_G (a0 : FVec Ideal S8x256x192x192 .f32) (a1 : FVec Ideal S16x256 .f32) (a2 : FVec Ideal S16 .f32)
    (a3 : FVec Ideal S256x16 .f32) (a4 : FVec Ideal S256 .f32) :
    val_main_v25 (F := Ideal) a0 a1 a2 a3 a4 = G a0 a1 a2 a3 a4 := by
  funext i
  obtain ⟨n, c, h, w, rfl⟩ : ∃ (n : Fin 8) (c : Fin 256) (h w : Fin 192), i = ValueIdx.ix4 n c h w :=
    ⟨i 0, i 1, i 2, i 3, ValueIdx.eq_ix4 i⟩
  rw [val_main_v25_apply, val_main_v24_apply, val_main_v23_apply, G_apply]
  have hidx : idx_main_v23 (idx_main_v24 (ValueIdx.ix4 n c h w)) = ValueIdx.ix2 n c :=
    funext fun a => Fin.ext (by
      match a with
      | ⟨0, _⟩ => rfl
      | ⟨1, _⟩ => rfl)
  have hgate : val_main_v22 (F := Ideal) a0 a1 a2 a3 a4 = gateOf (val_main_v1 (F := Ideal) a0) a1 a2 a3 a4 := rfl
  rw [hidx, hgate, ref_rowsq]
  rfl

end Cert.Spec

end
-- ==== Proof.RefRun.lean ====
/-
  The reference's run with its result named by the specification: the generated run states the result array at the
  composed term of the arguments; that term is the last stage of the reference read stage by stage, which is G.
-/
import proofs.«115023_j34445637714659_2_alg».proof.Proof.RefValue

noncomputable section

namespace Cert.Spec

open Cert.ReferenceIdeal Cert.ReferenceIdeal.Gen Cert.ReferenceIdeal.Read Idealize.ShloMosaic Idealize.ShloMosaic.TcCoe Idealize.SL.Sem Idealize.ShloMosaic.StableHlo

/-- The reference's run, with its result named by the specification: every weakly fair execution terminates with the
    result array at `G` of the arguments' launch contents and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25)
          = G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨((h c).1.trans (val_main_v25_eq (F := Ideal) _ _ _ _ _)).trans (ref_is_G _ _ _ _ _), (h c).2⟩)
    (Cert.ReferenceIdeal.Value.run (F := Ideal) m ρ)

end Cert.Spec

end
-- ==== Proof.lean ====
/-
  The certificate of the squeeze-and-excite block: the kernel reshapes the input to rows, takes each row's sum of
  squares in a first pass (36 column tiles accumulated in a scratch), computes the gate on the host, and scales each
  row by its gate in a second pass; the reference takes the same sums over the two spatial axes, the same host chain,
  and one broadcast product. At the extended reals the two agree entry by entry: a row's tiled sum is its double sum
  (addition is commutative and associative; no finiteness is used), the host chain between is the same function on
  both sides, and the reshapes are bijections of indices.
  The frames of the kernel, at both instances, are one run of the whole program as seven segments whose post reads
  every buffer at the end; the reference's frame is its run with the result dropped. Nothing was rewritten by the
  idealization, so that conjunct is trivial.
-/
import proofs.«115023_j34445637714659_2_alg».proof.Defs
import proofs.«115023_j34445637714659_2_alg».proof.Proof.Gen.Kernel
import proofs.«115023_j34445637714659_2_alg».proof.Proof.Gen.KernelIdeal
import proofs.«115023_j34445637714659_2_alg».proof.Proof.Gen.ReferenceIdeal
import proofs.«115023_j34445637714659_2_alg».proof.Proof.Gen.Pre_finite_inputs
import proofs.«115023_j34445637714659_2_alg».proof.Proof.Gen.ReferenceIdeal.Read
import proofs.«115023_j34445637714659_2_alg».proof.Proof.RunAllBits
import proofs.«115023_j34445637714659_2_alg».proof.Proof.KernelValue
import proofs.«115023_j34445637714659_2_alg».proof.Proof.RefRun
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the specification of the argument arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact Cert.KernelIdeal.Hand.run_result m ρ
  · refine (θ_run Cert.ReferenceIdeal.defs _ _).mono (fun _ h c => ⟨(h c).1.trans ?_, (h c).2⟩) (Cert.Spec.ref_run m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
